-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S1x1 : Shape := ⟨2, ![1, 1]⟩
abbrev S64x8192 : Shape := ⟨2, ![64, 8192]⟩
abbrev S8x8192 : Shape := ⟨2, ![8, 8192]⟩
abbrev S1x8192 : Shape := ⟨2, ![1, 8192]⟩
abbrev S63x8192 : Shape := ⟨2, ![63, 8192]⟩
abbrev S1x64x8192 : Shape := ⟨3, ![1, 64, 8192]⟩
abbrev S1 : Shape := ⟨1, ![1]⟩
abbrev S1x1x1 : Shape := ⟨3, ![1, 1, 1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S8x8192, .f32⟩
  | .local _ .vmem, ⟨3, _⟩ => ⟨S8x8192, .f32⟩
  | .local _ .vmem, ⟨4, _⟩ => ⟨S8x8192, .f32⟩
  | .local _ .vmem, ⟨5, _⟩ => ⟨S8x8192, .f32⟩
  | .local _ .vmem, ⟨6, _⟩ => ⟨S64x8192, .f32⟩
  | .local _ .vmem, ⟨7, _⟩ => ⟨S64x8192, .f32⟩
  | .local _ .vmem, ⟨8, _⟩ => ⟨S1x1, .f32⟩
  | .local _ .vmem, ⟨9, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli c8_i32 v0
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S64x8192_S64x8192_0_0 : ∀ a, (![0, 0] : Fin 2 → Nat) a + S64x8192.size a ≤ S64x8192.size a
  h_S64x8192 : 0 < S64x8192.numel
  inb_S8x8192_S1x8192_7_0 : ∀ a, (![7, 0] : Fin 2 → Nat) a + S1x8192.size a ≤ S8x8192.size a
  h_S1x8192 : 0 < S1x8192.numel
  inb_S8x8192_S1x8192_0_0 : ∀ a, (![0, 0] : Fin 2 → Nat) a + S1x8192.size a ≤ S8x8192.size a
  slices_S64x8192_o1_0_S63x8192 : S64x8192.Slices ![1, 0] S63x8192
  concatenates_S63x8192_S1x8192_S64x8192_d0 : Shape.Concatenates [S63x8192, S1x8192] S64x8192 0
  slices_S64x8192_o0_0_S63x8192 : S64x8192.Slices ![0, 0] S63x8192
  concatenates_S1x8192_S63x8192_S64x8192_d0 : Shape.Concatenates [S1x8192, S63x8192] S64x8192 0
  iota_S64x8192_d1_w32 : S64x8192.Iotas .tc 32 [1]
  rotates_S64x8192_d1 : S64x8192.Rotates 1 none
  shapeCasts_S1x1_S1x1 : S1x1.ShapeCasts S1x1
  shapeCasts_S64x8192_S1x64x8192 : S64x8192.ShapeCasts S1x64x8192
  reduces_S1x64x8192_S1 : S1x64x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .f32 = 32 ∨ (Rect.block (s := S4096x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S4096x8192.size a
  hwx0_1 : ∀ i : grid0.Coords, EltTy.bits .f32 = 32 ∨ (Rect.block (s := S4096x8192) S8x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192.size a ≤ S4096x8192.size a
  hwx0_2 : ∀ i : grid0.Coords, EltTy.bits .f32 = 32 ∨ (Rect.block (s := S4096x8192) S8x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S4096x8192.size a
  hwx0_3 : ∀ i : grid0.Coords, EltTy.bits .f32 = 32 ∨ (Rect.block (s := S4096x8192) S64x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg1) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_cst_6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S4096x8192_S4096x8192_w3s1p1_1_w3s1p1_1 : S4096x8192.ReduceWindows (![3, 3] : Fin 2 → Nat) ![1, 1] ![1, 1] ![1, 1] S4096x8192
  h_S_ : 0 < S_.numel
  reducesTo_S4096x8192_S_d0_1 : S4096x8192.ReducesTo [0, 1] S_
  bcast_S_S4096x8192 : S_.BroadcastsInDim S4096x8192 (![] : Fin 0 → Fin S4096x8192.rank)

variable [Facts₀]

class Facts : Prop extends Facts₀ where

variable [Facts]
-- ==== Proof.Launch.lean ====
/-
  The launch of a kernel whose three image windows read ONE array.  The array's full share is dealt among the
  three windows that read it (a half and two quarters); the lines of host arithmetic after the region touch only
  the two result cells and the scalar temporaries, so they run beside the input shares, which are framed.
-/
import proofs.«101877_j28226525070228_2_alg».proof.Proof.Gen.KernelIdeal.Launch
import proofs.«101877_j28226525070228_2_alg».proof.Proof.Gen.KernelIdeal.Points
import Idealize.ShloMosaic.Lib.Pipeline.FrameSuffix

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

/-- The two result windows by themselves: their arrays are distinct buffers. -/
abbrev outSpec : Fin 2 → Pipeline.WinSpec sig grid0.rank := fun | 0 => spec0 4 | 1 => spec0 5

theorem outSpec_inj : Function.Injective (Pipeline.arrRef outSpec) := by decide

/-- The buffers the windows read or write, listed. -/
theorem arrRefs_eq : (Finset.univ.image (Pipeline.arrRef spec0)) = [main_arg1, main_arg0, main_v0_0, main_v0_1].toFinset := by decide

/-- The scalar temporaries: unscoped, no window's array. -/
theorem rest_eq : Pipeline.restRefsP sig Prefetch.none outSpec \ ({main_arg0, main_arg1} : Finset (Ref sig .tc)) = Pipeline.restRefs sig spec0 := by decide

variable (m : (ℓ : Loc nD τ sig) → Buf (Elt F) ℓ) (ρ : Dev nD → PrngReg)

/-- The windows' arrays one by one, each a whole buffer at its window's share. -/
theorem arrays_six {c : Dev nD} (dat : Dat τ (Elt F) Unit ℕ (UR sig nD τ) ℕ cfg0 c)
    (A : (w : Fin cfg0.W) → Buf (Elt F) ((cfg0.win w).arr.view.loc (c.tc : Thread nD τ))) :
    (dat.arrays A : sProp 𝕄) = iprop(
      (((c.tc : Thread nD τ).loc (Pipeline.arrRef spec0 0)) ↦{dat.share 0} A 0) ∗ (((c.tc : Thread nD τ).loc (Pipeline.arrRef spec0 1)) ↦{dat.share 1} A 1)
      ∗ (((c.tc : Thread nD τ).loc (Pipeline.arrRef spec0 2)) ↦{dat.share 2} A 2) ∗ (((c.tc : Thread nD τ).loc (Pipeline.arrRef spec0 3)) ↦{dat.share 3} A 3)
      ∗ (((c.tc : Thread nD τ).loc (Pipeline.arrRef spec0 4)) ↦{dat.share 4} A 4) ∗ (((c.tc : Thread nD τ).loc (Pipeline.arrRef spec0 5)) ↦{dat.share 5} A 5)) := by
  have h : (dat.arrays A : sProp 𝕄)
      = bigSep Finset.univ fun w : Fin 6 => (((c.tc : Thread nD τ).loc (Pipeline.arrRef spec0 w)) ↦{dat.share w} A w : sProp 𝕄) := by
    unfold Dat.arrays
    exact bigSep_congr fun w _ => by rw [(arr_whole0 w).set_eq_univ]
  rw [h, bigSep_W0]

/-- The image the dilation reads is handed to the pipeline once; its full share is dealt among the three windows
    that read it — a half, a quarter, a quarter — and the other arrays go to their one window whole. -/
theorem deal_arrays {c : Dev nD} (dat : Dat τ (Elt F) Unit ℕ (UR sig nD τ) ℕ cfg0 c)
    (hA : ∀ w, dat.A w = m ((c.tc : Thread nD τ).loc (Pipeline.arrRef spec0 w)))
    (hq0 : dat.q 0 = fullShare.left) (hq1 : dat.q 1 = fullShare.right.left)
    (hq2 : dat.q 2 = fullShare.right.right) (hq3 : dat.q 3 = fullShare) :
    (Pipeline.arrBufs spec0 c (fun b => m ((c.tc : Thread nD τ).loc b)) : sProp 𝕄) ⊢ dat.arrays (dat.arrAt · 0) := by
  have e0 : dat.share 0 = fullShare.left := (if_neg Bool.false_ne_true).trans hq0
  have e1 : dat.share 1 = fullShare.right.left := (if_neg Bool.false_ne_true).trans hq1
  have e2 : dat.share 2 = fullShare.right.right := (if_neg Bool.false_ne_true).trans hq2
  have e3 : dat.share 3 = fullShare := (if_neg Bool.false_ne_true).trans hq3
  have e4 : dat.share 4 = fullShare := if_pos rfl
  have e5 : dat.share 5 = fullShare := if_pos rfl
  rw [arrays_six, e0, e1, e2, e3, e4, e5]
  unfold Pipeline.arrBufs
  rw [bigSep_eq_bigSepL_of_eq _ arrRefs_eq (by decide)]
  show iprop((((c.tc : Thread nD τ).loc main_arg1) ↦{fullShare} m ((c.tc : Thread nD τ).loc main_arg1))
      ∗ (((c.tc : Thread nD τ).loc main_arg0) ↦{fullShare} m ((c.tc : Thread nD τ).loc main_arg0))
      ∗ (((c.tc : Thread nD τ).loc main_v0_0) ↦{fullShare} m ((c.tc : Thread nD τ).loc main_v0_0))
      ∗ (((c.tc : Thread nD τ).loc main_v0_1) ↦{fullShare} m ((c.tc : Thread nD τ).loc main_v0_1))) ⊢ iprop(
      (((c.tc : Thread nD τ).loc main_arg1) ↦{fullShare.left} dat.A 0) ∗ (((c.tc : Thread nD τ).loc main_arg1) ↦{fullShare.right.left} dat.A 1)
      ∗ (((c.tc : Thread nD τ).loc main_arg1) ↦{fullShare.right.right} dat.A 2) ∗ (((c.tc : Thread nD τ).loc main_arg0) ↦{fullShare} dat.A 3)
      ∗ (((c.tc : Thread nD τ).loc main_v0_0) ↦{fullShare} dat.A 4) ∗ (((c.tc : Thread nD τ).loc main_v0_1) ↦{fullShare} dat.A 5))
  rw [hA 0, hA 1, hA 2, hA 3, hA 4, hA 5]
  iintro ⟨H1, H0, Ha, Hb⟩
  ihave Hs := (pointsTo_share (PosShare.mem_left_op_right fullShare)).1 $$ H1
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  isplitl [H0]; · iexact H0
  isplitl [Ha]; · iexact Ha
  iexact Hb

/-! ## The lines of host arithmetic after the region -/

/-- The buffers those lines may touch: the two result cells and the scalar temporaries — not the two images. -/
abbrev lineRefs : Finset (Ref sig .tc) :=
  Finset.univ.image (Pipeline.arrRef outSpec) ∪ (Pipeline.restRefsP sig Prefetch.none outSpec \ ({main_arg0, main_arg1} : Finset (Ref sig .tc)))

theorem lineRefs_map : Pipeline.tailRefsBut (τ := τ) sig Prefetch.none outSpec ({main_arg0, main_arg1} : Finset (Ref sig .tc))
    = lineRefs.map ⟨Proc.devRef (sig := sig) (.tc : Proc τ), Proc.devRef_injective _⟩ := rfl

theorem within1 {y : Ref sig .tc} (hy : y ∈ lineRefs) :
    ({Proc.devRef .tc y} : Finset (DevRef τ sig)) ⊆ Pipeline.tailRefsBut sig Prefetch.none outSpec ({main_arg0, main_arg1} : Finset (Ref sig .tc)) := by
  rw [lineRefs_map]; intro d hd
  rw [Finset.mem_singleton] at hd; subst hd
  exact Finset.mem_map_of_mem _ hy

theorem within2 {x y : Ref sig .tc} (hx : x ∈ lineRefs) (hy : y ∈ lineRefs) :
    ({Proc.devRef .tc x, Proc.devRef .tc y} : Finset (DevRef τ sig)) ⊆ Pipeline.tailRefsBut sig Prefetch.none outSpec ({main_arg0, main_arg1} : Finset (Ref sig .tc)) := by
  rw [lineRefs_map]; intro d hd
  rw [Finset.mem_insert, Finset.mem_singleton] at hd
  rcases hd with rfl | rfl
  · exact Finset.mem_map_of_mem _ hx
  · exact Finset.mem_map_of_mem _ hy

theorem within3 {a b y : Ref sig .tc} (ha : a ∈ lineRefs) (hb : b ∈ lineRefs) (hy : y ∈ lineRefs) :
    ({Proc.devRef .tc a, Proc.devRef .tc b, Proc.devRef .tc y} : Finset (DevRef τ sig)) ⊆ Pipeline.tailRefsBut sig Prefetch.none outSpec ({main_arg0, main_arg1} : Finset (Ref sig .tc)) := by
  rw [lineRefs_map]; intro d hd
  rw [Finset.mem_insert, Finset.mem_insert, Finset.mem_singleton] at hd
  rcases hd with rfl | rfl | rfl
  · exact Finset.mem_map_of_mem _ ha
  · exact Finset.mem_map_of_mem _ hb
  · exact Finset.mem_map_of_mem _ hy

/-- Each line reads and writes result cells and scalar temporaries only. -/
theorem lines_within : ∀ ops ∈ ([hostOps1, hostOps1_1] : List (List (HloOp τ sig (Elt F)))), ∀ op ∈ ops,
    op.bufs ⊆ Pipeline.tailRefsBut sig Prefetch.none outSpec ({main_arg0, main_arg1} : Finset (Ref sig .tc)) := by
  have h1 : (hostOps1 : List (HloOp τ sig (Elt F))).Forall fun op =>
      op.bufs ⊆ Pipeline.tailRefsBut sig Prefetch.none outSpec ({main_arg0, main_arg1} : Finset (Ref sig .tc)) :=
    ⟨within2 (by decide) (by decide), within2 (by decide) (by decide), within1 (by decide),
      within3 (by decide) (by decide) (by decide), within3 (by decide) (by decide) (by decide), within1 (by decide),
      within3 (by decide) (by decide) (by decide), within3 (by decide) (by decide) (by decide), within1 (by decide), within1 (by decide)⟩
  have h2 : (hostOps1_1 : List (HloOp τ sig (Elt F))).Forall fun op =>
      op.bufs ⊆ Pipeline.tailRefsBut sig Prefetch.none outSpec ({main_arg0, main_arg1} : Finset (Ref sig .tc)) :=
    ⟨within2 (by decide) (by decide), within3 (by decide) (by decide) (by decide), within2 (by decide) (by decide),
      within3 (by decide) (by decide) (by decide)⟩
  intro ops hops op hop
  simp only [List.mem_cons, List.mem_nil_iff, or_false] at hops
  rcases hops with rfl | rfl
  · exact (List.forall_iff_forall_mem.mp h1) op hop
  · exact (List.forall_iff_forall_mem.mp h2) op hop

/-- They allocate nothing. -/
theorem lines_fresh : ∀ ops ∈ ([hostOps1, hostOps1_1] : List (List (HloOp τ sig (Elt F)))), ∀ op ∈ ops, op.fresh = ∅ := by
  have h1 : (hostOps1 : List (HloOp τ sig (Elt F))).Forall fun op => op.fresh = ∅ := ⟨rfl, rfl, rfl, rfl, rfl, rfl, rfl, rfl, rfl, rfl⟩
  have h2 : (hostOps1_1 : List (HloOp τ sig (Elt F))).Forall fun op => op.fresh = ∅ := ⟨rfl, rfl, rfl, rfl⟩
  intro ops hops op hop
  simp only [List.mem_cons, List.mem_nil_iff, or_false] at hops
  rcases hops with rfl | rfl
  · exact (List.forall_iff_forall_mem.mp h1) op hop
  · exact (List.forall_iff_forall_mem.mp h2) op hop

theorem keeps1 {y : Ref sig .tc} (h0 : main_v0_0 ≠ y) (h1 : main_v0_1 ≠ y) :
    ∀ w, Proc.devRef .tc (Pipeline.arrRef outSpec w) ∉ ({Proc.devRef .tc y} : Finset (DevRef τ sig)) := by
  intro w; rw [Finset.mem_singleton]
  fin_cases w
  · exact StableHlo.devRef_ne_of_ne h0
  · exact StableHlo.devRef_ne_of_ne h1

/-- And none writes a result cell: each writes its own temporary. -/
theorem lines_keep : ∀ ops ∈ ([hostOps1, hostOps1_1] : List (List (HloOp τ sig (Elt F)))), ∀ op ∈ ops,
    ∀ w, Proc.devRef .tc (Pipeline.arrRef outSpec w) ∉ op.writes := by
  have h1 : (hostOps1 : List (HloOp τ sig (Elt F))).Forall fun op => ∀ w, Proc.devRef .tc (Pipeline.arrRef outSpec w) ∉ op.writes :=
    ⟨keeps1 (by decide) (by decide), keeps1 (by decide) (by decide), keeps1 (by decide) (by decide), keeps1 (by decide) (by decide),
      keeps1 (by decide) (by decide), keeps1 (by decide) (by decide), keeps1 (by decide) (by decide), keeps1 (by decide) (by decide),
      keeps1 (by decide) (by decide), keeps1 (by decide) (by decide)⟩
  have h2 : (hostOps1_1 : List (HloOp τ sig (Elt F))).Forall fun op => ∀ w, Proc.devRef .tc (Pipeline.arrRef outSpec w) ∉ op.writes :=
    ⟨keeps1 (by decide) (by decide), keeps1 (by decide) (by decide), keeps1 (by decide) (by decide), keeps1 (by decide) (by decide)⟩
  intro ops hops op hop
  simp only [List.mem_cons, List.mem_nil_iff, or_false] at hops
  rcases hops with rfl | rfl
  · exact (List.forall_iff_forall_mem.mp h1) op hop
  · exact (List.forall_iff_forall_mem.mp h2) op hop

/-! ## The run -/

section Run

variable (dats : (p : Fin 1) → (c : Dev nD) → Dat τ (Elt F) Unit ℕ (UR sig nD τ) ℕ (cfgs p) c)

/-- The two result cells at what the last write-back left. -/
def outsAtExit (c : Dev nD) : (w : Fin 2) → Buf (Elt F) ((outSpec w).arr.view.loc (c.tc : Thread nD τ))
  | 0 => (dats 0 c).arrAt 4 cfg0.N
  | 1 => (dats 0 c).arrAt 5 cfg0.N

/-- The core's buffers when the region is left: the two result cells at what the last write-back left, every
    other buffer as launched. -/
def exitVal (c : Dev nD) : Valuation τ sig (Elt F) :=
  Pipeline.withArrays outSpec c (fun b => m (c, b)) (outsAtExit dats c)

/-- Every buffer after the lines of host arithmetic that follow the region. -/
def tailVal (c : Dev nD) (b : Ref sig .tc) : Buf (Elt F) ((c.tc : Thread nD τ).loc b) :=
  StableHlo.after ([hostOps1, hostOps1_1] : List (List (HloOp τ sig (Elt F)))).flatten (exitVal m dats c) (Proc.devRef .tc b)

local notation "𝔻" => Pipeline.defs (fun q => Cfg.toPCfg (Val := Elt F) (cfgs q)) (defs₀ (F := F))

theorem arrPts_two (c : Dev nD) (A : (w : Fin 2) → Buf (Elt F) ((outSpec w).arr.view.loc (c.tc : Thread nD τ))) :
    (Pipeline.arrPts outSpec c A : sProp 𝕄)
      = iprop((((c.tc : Thread nD τ).loc main_v0_0) ↦{fullShare} A 0) ∗ (((c.tc : Thread nD τ).loc main_v0_1) ↦{fullShare} A 1)) := by
  unfold Pipeline.arrPts
  rw [bigSep_univ_eq_bigSepL [(0 : Fin 2), (1 : Fin 2)] (by decide) (by decide)]
  rfl

/-- From the region's exit the lines run beside the images' shares, which they do not touch, and leave the result cells
    as they were and the temporaries at the lines' values. -/
theorem tail_run (hq3 : ∀ c, (dats 0 c).q 3 = fullShare) (c : Dev nD) (Q' : PUnit → sProp 𝕄) :
    iprop((iprop((dats 0 c).arrays ((dats 0 c).arrAt · cfg0.N)
            ∗ Pipeline.unscopedRestP (Ix := Unit) (Name := ℕ) (U := UR sig nD τ) (Lvl := ℕ) Prefetch.none spec0 c (tailVal m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Prefetch.none spec0 c (fun b => m ((c.tc : Thread nD τ).loc b)))
      ⊢ wp frame (wpE 𝔻 (Variants.lift Variants.none) (c.tc : Thread nD τ) none) Set.univ
          (Pipeline.chain (([hostOps1, hostOps1_1] : List (List (HloOp τ sig (Elt F)))).map StableHlo.seq)) Q' := by
  have e4 : (dats 0 c).share 4 = fullShare := if_pos rfl
  have e5 : (dats 0 c).share 5 = fullShare := if_pos rfl
  have hrest (W : (b : Ref sig .tc) → Buf (Elt F) ((c.tc : Thread nD τ).loc b)) :
      (Pipeline.unscopedRestP (Ix := Unit) (Name := ℕ) (U := UR sig nD τ) (Lvl := ℕ) Prefetch.none spec0 c W : sProp 𝕄)
        = bigSep (Pipeline.restRefsP sig Prefetch.none outSpec \ ({main_arg0, main_arg1} : Finset (Ref sig .tc)))
            fun b => (((c.tc : Thread nD τ).loc b) ↦{fullShare} W b : sProp 𝕄) := by
    rw [Pipeline.unscopedRestP_none, rest_eq]; rfl
  rw [arrays_six, e4, e5, hrest, hrest]
  have h := Pipeline.tail_seqs_but (Ix := Unit) (Name := ℕ) (U := UR sig nD τ) (Lvl := ℕ) (fun q => Cfg.toPCfg (Val := Elt F) (cfgs q)) (defs₀ (F := F)) Variants.none
    Prefetch.none outSpec outSpec_inj ({main_arg0, main_arg1} : Finset (Ref sig .tc)) c (fun b => m (c, b)) (outsAtExit dats c)
    ([hostOps1, hostOps1_1] : List (List (HloOp τ sig (Elt F)))) lines_within lines_fresh lines_keep Q'
  rw [arrPts_two] at h
  iintro ⟨Hk, Hb, ⟨H0, H1, H2, H3, H4, H5⟩, HZ⟩
  iapply h
  isplitr [Hb H4 H5 HZ]
  · iintro ⟨⟨H4, H5⟩, HZ⟩
    iapply Hk
    isplitr [HZ]
    · isplitl [H0]; · iexact H0
      isplitl [H1]; · iexact H1
      isplitl [H2]; · iexact H2
      isplitl [H3]; · iexact H3
      isplitl [H4]; · iexact H4
      iexact H5
    · iexact HZ
  · isplitl [Hb]; · iexact Hb
    isplitr [HZ]
    · isplitl [H4]; · iexact H4
      iexact H5
    · iexact HZ

end Run

section Launch

variable (dats : (p : Fin 1) → (c : Dev nD) → Dat τ (Elt F) Unit ℕ (UR sig nD τ) ℕ (cfgs p) c)

local notation "𝔻" => Pipeline.defs (fun q => Cfg.toPCfg (Val := Elt F) (cfgs q)) (defs₀ (F := F))

/-- @main is the region, then the two stretches of host arithmetic. -/
theorem main_around : Pipeline.HMainK (Ix := Unit) (Name := ℕ) (U := UR sig nD τ) (Lvl := ℕ) cfgs (0 : Fin 1) (defs₀ (F := F)) Variants.none m (main (F := F))
    (fun c b => (fun b => m (c, b) : Valuation τ sig (Elt F)) (Proc.devRef .tc b))
    (fun _ => Pipeline.chain (([hostOps1, hostOps1_1] : List (List (HloOp τ sig (Elt F)))).map StableHlo.seq)) :=
  Pipeline.hmain_around cfgs (0 : Fin 1) defs₀ Variants.none m main [] [hostOps1, hostOps1_1] trivial trivial
    (fun c => (main_chain c).trans rfl)

set_option backward.isDefEq.respectTransparency.types false in
/-- THE RUN. From any memory with zero counters every weakly fair execution of @main ends, faulting nowhere, with every
    window's array at what the write-backs left (an image: as launched) and every other unscoped buffer at the value
    the lines after the region give it. -/
theorem run_shared
    (hbody : ∀ c, BodyObligationLoose (dats 0 c) (defs₀ (F := F)) Variants.none () Set.univ)
    (howed : ∀ c t, (dats 0 c).owed t = 0)
    (hA : ∀ c w, (dats 0 c).A w = m ((c.tc : Thread nD τ).loc (Pipeline.arrRef spec0 w)))
    (hΦ : ∀ c t, (dats 0 c).Φ t = Pipeline.ΦA spec0 c)
    (hq0 : ∀ c, (dats 0 c).q 0 = fullShare.left) (hq1 : ∀ c, (dats 0 c).q 1 = fullShare.right.left)
    (hq2 : ∀ c, (dats 0 c).q 2 = fullShare.right.right) (hq3 : ∀ c, (dats 0 c).q 3 = fullShare) :
    θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailVal m dats c b) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ (defs₀ (F := F)) Variants.none m ρ (main (F := F))
    (fun _ => Pipeline.chain (([hostOps1, hostOps1_1] : List (List (HloOp τ sig (Elt F)))).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => (fun b => m (c, b) : Valuation τ sig (Elt F)) (Proc.devRef .tc b)) (hmain := main_around m)
    (hsplit := fun c => deal_arrays m (dats 0 c) (hA c) (hq0 c) (hq1 c) (hq2 c) (hq3 c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Prefetch.none spec0 c (fun b => m ((c.tc : Thread nD τ).loc b)))
    (Z' := fun c => Pipeline.unscopedRestP (Ix := Unit) (Name := ℕ) (U := UR sig nD τ) (Lvl := ℕ) Prefetch.none spec0 c (tailVal m dats c))
    (hX := fun c => by
      iintro ⟨HU, -, -, -, Hp, -⟩; imodintro
      isplitl [Hp]; · iexists _; iexact Hp
      iexact HU)
    (hin := fun c => by
      rw [hΦ]; unfold Pipeline.ΦA; iintro ⟨Hp, Ht, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_run m dats hq3 c Q')
    (QY := fun c s => ∀ b ∈ Pipeline.restRefsP sig Prefetch.none spec0, s.mem ((c.tc : Thread nD τ).loc b) = tailVal m dats c b)
    (hY := fun c s' => by
      iintro ⟨-, HU, HSI⟩
      unfold Pipeline.unscopedRestP
      imodintro
      iapply (pointsTo_read_all (Pipeline.restRefsP sig Prefetch.none spec0) (fun b => (c.tc : Thread nD τ).loc b) (tailVal m dats c) s')
      isplitl [HU] <;> iassumption)
    (hQ := fun s h c => ⟨(h c).1, fun b hb => (h c).2.2 b (by rw [Pipeline.restRefsP]; simpa using hb)⟩)

end Launch

end Cert.KernelIdeal.Shared

end
-- ==== Proof.BodyBase.lean ====
/- What the kernel body's obligation is stated over, before any run of the body: the arrays as the region finds
   them, each window's block read off its array, the body's one branch condition in closed form over the 64 grid
   points, the staging memrefs the body is called with at a point, and — for each of the four input windows — that
   its current staging buffer holds its block at every point. Three of the input windows read one array; nothing
   here depends on that: a block is a read of the array's contents, whichever window reads it. -/
import proofs.«101877_j28226525070228_2_alg».proof.Proof.Gen.KernelIdeal.Launch
import proofs.«101877_j28226525070228_2_alg».proof.Proof.Gen.KernelIdeal.Skeleton
import proofs.«101877_j28226525070228_2_alg».proof.Proof.Gen.KernelIdeal.Points
import Idealize.ShloMosaic.Lib.Pipeline.FrameBody
import Idealize.ShloMosaic.Lib.Ring
import Idealize.ShloMosaic.Lib.Tactic

-- membership in a rectangle of the 64×8192 blocks: the elaborator's structural look recurses once per
-- coordinate of the long axis
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s TensorCore buffers when the region is entered: the region is the program's first line, so they are the
    buffers as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The inputs' buffers at a point -/

/-- Input window 0's current staging buffer holds its block at every point, whether the point fetched it or not, for
    any proof data whose array there is the region-entry contents and whose body leaves the block in place: an
    unfetched point has the block index of the point before it, the window is uncut and never idle. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or not, for
    any proof data whose array there is the region-entry contents and whose body leaves the block in place: an
    unfetched point has the block index of the point before it, the window is uncut and never idle. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or not, for
    any proof data whose array there is the region-entry contents and whose body leaves the block in place: an
    unfetched point has the block index of the point before it, the window is uncut and never idle. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or not, for
    any proof data whose array there is the region-entry contents and whose body leaves the block in place: an
    unfetched point has the block index of the point before it, the window is uncut and never idle. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional — the accumulators' reset — from the grid coordinates: the
    skeleton's scalar chain, substituted. -/
abbrev atReset (i : grid0.Coords) : Prop := (Scalar.cmpi .ne (Scalar.extui (Scalar.cmpi .eq (BitVec.ofNat 32 (i 0).val) 0#32)) 0#32) = 1#1
/-- It holds at the first point only: decided over the 64 points. -/
theorem atReset_iff : ∀ t : Fin cfg0.N, atReset (grid0.coords t) ↔ t.val % 64 = 0 :=
  (by decide +kernel : ∀ t : Fin grid0.N, atReset (grid0.coords t) ↔ t.val % 64 = 0)

/-! ## The staging memrefs at a point -/

/-- Each window's current staging memref at point `t`, spelled as the pipeline passes it to the body, and its
    wholeness. -/
abbrev stg0 (t : Fin cfg0.N) : Memref sig .tc .vmem S64x8192 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S8x8192 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S8x8192 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S64x8192 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S1x1 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x1 .f32 := win0_5.stage (cfg0.slots t 5)
abbrev stg5_whole (t : Fin cfg0.N) : (stg5 t).IsWhole := hstage0_5 ((cfg0.slots t 5).cast nbuf0_5)

end Cert.KernelIdeal.Body

end
-- ==== Proof.BodyRunA.lean ====
/- The kernel body's triple at the grid's FIRST point, where the conditional resets both accumulators before they are
   read: on whole staging memrefs, the four inputs' at their contents and the two outputs' at ANY contents, the body
   runs to a continuation holding the inputs' as they were and each output's with the pieces its stores wrote. The
   pieces are not transcribed: they are the witness of a subtype, found when the run hands the buffers over. -/
import proofs.«101877_j28226525070228_2_alg».proof.Proof.BodyBase

-- membership in a rectangle of the 64×8192 blocks: the elaborator's structural look recurses once per
-- coordinate of the long axis
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the run's proof term is large
set_option maxHeartbeats 1000000 in
/-- The pieces (last first) the body's stores leave in the two outputs' staging memrefs when the reset is taken, with
    the run that finds them. -/
noncomputable def runReset (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Body

end
-- ==== Proof.BodyRunB.lean ====
/- The kernel body's triple at a LATER point of the grid, where the conditional is not taken and both accumulators are
   read before they are stored: on whole staging memrefs, the four inputs' at their contents and the two outputs' at
   their running contents, the body runs to a continuation holding the inputs' as they were and each output's with the
   pieces its stores wrote — the witness of a subtype, found when the run hands the buffers over. -/
import proofs.«101877_j28226525070228_2_alg».proof.Proof.BodyRunA

-- membership in a rectangle of the 64×8192 blocks: the elaborator's structural look recurses once per
-- coordinate of the long axis
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the run's proof term is large
set_option maxHeartbeats 1000000 in
/-- The pieces (last first) the body's stores leave in the two outputs' staging memrefs when the reset is not taken,
    over the running contents `xo4`, `xo5` the accumulators are handed at, with the run that finds them. -/
noncomputable def runAccum (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Body

end
-- ==== Proof.BodyData.lean ====
/- The pipeline's proof data for the kernel: what each case of the body leaves in the two accumulated outputs (its
   stores' pieces cover the one-element block, so the buffer is their read-back whatever it held), what the outputs
   hold after each point by recursion on the point — reset at the first point, added to over what the point before
   left at every later one —, and the proof data itself with what each window's staging buffer holds before and after
   the body. Three input windows read one array, so that array's share is dealt among them: a half, a quarter and a
   quarter. -/
import proofs.«101877_j28226525070228_2_alg».proof.Proof.BodyRunB

-- membership in a rectangle of the 64×8192 blocks: the elaborator's structural look recurses once per
-- coordinate of the long axis
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the outputs -/

/-- One staging buffer of each output window, through which its contents are stated: the read-back of covering
    pieces does not depend on the choice. -/
abbrev outView4 : View sig .tc .vmem S1x1 .f32 := (Memref.whole cc0_stg4_0 : Memref sig .tc .vmem S1x1 .f32).view
abbrev outView5 : View sig .tc .vmem S1x1 .f32 := (Memref.whole cc0_stg5_0 : Memref sig .tc .vmem S1x1 .f32).view

/-- The reset case's pieces for output 4 tile its one-element block (2 stores of `S1x1`, checked by evaluating the
    pieces' rectangles), so they cover it. -/
theorem coverReset4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) (y : S1x1.Idx) :
    ∃ pc ∈ (runReset c i arg1 harg1 arg2 harg2 arg3 harg3 arg4 harg4 arg5 harg5 arg6 harg6 hc0 x0 x1 x2 x3).1.1, y ∈ pc.1.set :=
  View.cover_of_tiledL (runReset c i arg1 harg1 arg2 harg2 arg3 harg3 arg4 harg4 arg5 harg5 arg6 harg6 hc0 x0 x1 x2 x3).1.1 S1x1.size (by sl_kernel_rfl) y

/-- What the reset case leaves in output 4's staging buffer: its pieces read back over junk. -/
def outReset4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) : Vec F S1x1 .f32 :=
  outView4.read (Elt F) (outView4.writes (Elt F) outView4.junk (runReset c i arg1 harg1 arg2 harg2 arg3 harg3 arg4 harg4 arg5 harg5 arg6 harg6 hc0 x0 x1 x2 x3).1.1)

/-- The reset case's pieces for output 5 tile its one-element block (2 stores of `S1x1`, checked by evaluating the
    pieces' rectangles), so they cover it. -/
theorem coverReset5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) (y : S1x1.Idx) :
    ∃ pc ∈ (runReset c i arg1 harg1 arg2 harg2 arg3 harg3 arg4 harg4 arg5 harg5 arg6 harg6 hc0 x0 x1 x2 x3).1.2, y ∈ pc.1.set :=
  View.cover_of_tiledL (runReset c i arg1 harg1 arg2 harg2 arg3 harg3 arg4 harg4 arg5 harg5 arg6 harg6 hc0 x0 x1 x2 x3).1.2 S1x1.size (by sl_kernel_rfl) y

/-- What the reset case leaves in output 5's staging buffer: its pieces read back over junk. -/
def outReset5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) : Vec F S1x1 .f32 :=
  outView5.read (Elt F) (outView5.writes (Elt F) outView5.junk (runReset c i arg1 harg1 arg2 harg2 arg3 harg3 arg4 harg4 arg5 harg5 arg6 harg6 hc0 x0 x1 x2 x3).1.2)

/-- The accumulating case's pieces for output 4 tile its one-element block (1 store of `S1x1`, checked by evaluating the
    pieces' rectangles), so they cover it. -/
theorem coverAccum4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) (y : S1x1.Idx) :
    ∃ pc ∈ (runAccum c i arg1 harg1 arg2 harg2 arg3 harg3 arg4 harg4 arg5 harg5 arg6 harg6 hc0 x0 x1 x2 x3 xo4 xo5).1.1, y ∈ pc.1.set :=
  View.cover_of_tiledL (runAccum c i arg1 harg1 arg2 harg2 arg3 harg3 arg4 harg4 arg5 harg5 arg6 harg6 hc0 x0 x1 x2 x3 xo4 xo5).1.1 S1x1.size (by sl_kernel_rfl) y

/-- What the accumulating case leaves in output 4's staging buffer: its pieces read back over junk. -/
def outAccum4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) : Vec F S1x1 .f32 :=
  outView4.read (Elt F) (outView4.writes (Elt F) outView4.junk (runAccum c i arg1 harg1 arg2 harg2 arg3 harg3 arg4 harg4 arg5 harg5 arg6 harg6 hc0 x0 x1 x2 x3 xo4 xo5).1.1)

/-- The accumulating case's pieces for output 5 tile its one-element block (1 store of `S1x1`, checked by evaluating the
    pieces' rectangles), so they cover it. -/
theorem coverAccum5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) (y : S1x1.Idx) :
    ∃ pc ∈ (runAccum c i arg1 harg1 arg2 harg2 arg3 harg3 arg4 harg4 arg5 harg5 arg6 harg6 hc0 x0 x1 x2 x3 xo4 xo5).1.2, y ∈ pc.1.set :=
  View.cover_of_tiledL (runAccum c i arg1 harg1 arg2 harg2 arg3 harg3 arg4 harg4 arg5 harg5 arg6 harg6 hc0 x0 x1 x2 x3 xo4 xo5).1.2 S1x1.size (by sl_kernel_rfl) y

/-- What the accumulating case leaves in output 5's staging buffer: its pieces read back over junk. -/
def outAccum5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) : Vec F S1x1 .f32 :=
  outView5.read (Elt F) (outView5.writes (Elt F) outView5.junk (runAccum c i arg1 harg1 arg2 harg2 arg3 harg3 arg4 harg4 arg5 harg5 arg6 harg6 hc0 x0 x1 x2 x3 xo4 xo5).1.2)

/-! ## What the outputs hold after each point -/

/-- What the reset case leaves in the two outputs at point `t`: run at the point's memrefs and input blocks. -/
def leftReset (c : Dev nD) (t : Fin cfg0.N) (h0 : t.val % 64 = 0) : Vec F S1x1 .f32 × Vec F S1x1 .f32 :=
  (outReset4 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t),
   outReset5 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t))

/-- What the accumulating case leaves in the two outputs at point `t`, over running contents `xo`. -/
def leftAccum (c : Dev nD) (t : Fin cfg0.N) (h0 : ¬t.val % 64 = 0) (xo : Vec F S1x1 .f32 × Vec F S1x1 .f32) : Vec F S1x1 .f32 × Vec F S1x1 .f32 :=
  (outAccum4 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t) xo.1 xo.2,
   outAccum5 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t) xo.1 xo.2)

/-- THE ACCUMULATION. What the two outputs' staging buffers hold after the body at position `n`: at the first point the
    reset case; at a later one the accumulating case over what this leaves at `n - 1` (the buffers are not written
    back between). -/
def outsAt (c : Dev nD) : (n : ℕ) → n < cfg0.N → Vec F S1x1 .f32 × Vec F S1x1 .f32
  | 0, hn => leftReset m c ⟨0, hn⟩ (Nat.zero_mod _)
  | n + 1, hn =>
    if h0 : (n + 1) % 64 = 0 then leftReset m c ⟨n + 1, hn⟩ h0
    else leftAccum m c ⟨n + 1, hn⟩ h0 (outsAt c n (Nat.lt_of_succ_lt hn))

/-- `outsAt` at a point where the reset is taken. -/
theorem outsAt_reset (c : Dev nD) (t : Fin cfg0.N) (h0 : t.val % 64 = 0) :
    outsAt m c t.val t.isLt = leftReset m c t h0 := by
  obtain ⟨n, hn⟩ := t
  cases n with
  | zero => exact rfl
  | succ n => exact (dif_pos h0).trans rfl

/-- `outsAt` at a later point: the accumulating case over what the point before left. -/
theorem outsAt_accum (c : Dev nD) (t : Fin cfg0.N) (h0 : ¬t.val % 64 = 0) :
    outsAt m c t.val t.isLt = leftAccum m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The case equations one output at a time, as the obligation reads them (a pair's component, reduced). -/
theorem outsAt_reset_fst (c : Dev nD) (t : Fin cfg0.N) (h0 : t.val % 64 = 0) :
    (outsAt m c t.val t.isLt).1 = outReset4 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t) := by
  rw [outsAt_reset m c t h0]; rfl
theorem outsAt_reset_snd (c : Dev nD) (t : Fin cfg0.N) (h0 : t.val % 64 = 0) :
    (outsAt m c t.val t.isLt).2 = outReset5 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t) := by
  rw [outsAt_reset m c t h0]; rfl
theorem outsAt_accum_fst (c : Dev nD) (t : Fin cfg0.N) (h0 : ¬t.val % 64 = 0) :
    (outsAt m c t.val t.isLt).1 = outAccum4 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t)
      (outsAt m c (t.val - 1) (Nat.lt_of_le_of_lt (Nat.sub_le _ _) t.isLt)).1 (outsAt m c (t.val - 1) (Nat.lt_of_le_of_lt (Nat.sub_le _ _) t.isLt)).2 := by
  rw [outsAt_accum m c t h0]; rfl
theorem outsAt_accum_snd (c : Dev nD) (t : Fin cfg0.N) (h0 : ¬t.val % 64 = 0) :
    (outsAt m c t.val t.isLt).2 = outAccum5 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t)
      (outsAt m c (t.val - 1) (Nat.lt_of_le_of_lt (Nat.sub_le _ _) t.isLt)).1 (outsAt m c (t.val - 1) (Nat.lt_of_le_of_lt (Nat.sub_le _ _) t.isLt)).2 := by
  rw [outsAt_accum m c t h0]; rfl

/-! ## The pipeline's proof data -/

/-- The proof data of the one pipeline on core `c`: the arrays as the region finds them; after the body at point `t`
    each input's buffer at its block and the two outputs' at `outsAt`; the invariant the scoped rest and the generator
    register; nothing owed; the array three input windows read held a half, a quarter and a quarter, every other array
    whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q := fun w => match w with | ⟨0,_⟩ => fullShare.left | ⟨1,_⟩ => fullShare.right.left | ⟨2,_⟩ => fullShare.right.right | _ => fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window (the proof data's `match` reduced). -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a later point output 4's staging buffer holds what the body left at the point before: the point is not the
    first, the buffer is written back at the last point only, the window is live and uncut. -/
theorem before4_accum (c : Dev nD) (t : Fin cfg0.N) (h0 : ¬t.val % 64 = 0) (d) :
    (dats m 0 c).before 4 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for output 5. -/
theorem before5_accum (c : Dev nD) (t : Fin cfg0.N) (h0 : ¬t.val % 64 = 0) (d) :
    (dats m 0 c).before 5 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

end Cert.KernelIdeal.Body

end
-- ==== Proof.BodyObl.lean ====
/- The kernel body's obligation to the pipeline, at every point of the grid: the inputs' staging memrefs hold their
   blocks; the closed form of the branch condition says whether the point resets the accumulators or adds to them, and
   at an adding point each accumulator's buffer holds what the point before left; so the case's run applies, and what
   it leaves in each output — pieces covering the block — reads back as the proof data say. The invariant passes
   through untouched and the core owes nothing throughout. -/
import proofs.«101877_j28226525070228_2_alg».proof.Proof.BodyData

-- membership in a rectangle of the 64×8192 blocks: the elaborator's structural look recurses once per
-- coordinate of the long axis
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The obligation at a generic point -/

/-- What the body is called with at point `t`: the obligation's precondition, the six windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h0 : t.val % 64 = 0
  · rw [outsAt_reset_fst m c t h0, outsAt_reset_snd m c t h0]
    unfold outReset4 outReset5
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((atReset_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverReset4 c _ _ _ _ _ _ _ _ _ _ _ _ _ _ _ _ _ _)
    unfold owns; iexists _; isplitr
    swap; · iexact H5
    ipureintro; exact View.read_writes_of_cover _ _ _ _ _ (coverReset5 c _ _ _ _ _ _ _ _ _ _ _ _ _ _ _ _ _ _)
  · rw [outsAt_accum_fst m c t h0, outsAt_accum_snd m c t h0]
    simp only [before4_accum m c t h0, before5_accum m c t h0]
    unfold outAccum4 outAccum5
    iintro ⟨HΦ, Ho, ⟨%d0, H0⟩, ⟨%d1, H1⟩, ⟨%d2, H2⟩, ⟨%d3, H3⟩, ⟨%d4, H4⟩, ⟨%d5, H5⟩⟩
    iapply ((runAccum c (grid0.coords t) _ _ _ _ _ _ _ _ _ _ _ _ (fun h => h0 ((atReset_iff t).mp h)) (iblk m c 0 t) (iblk m c 1 t) (iblk m c 2 t) (iblk m c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverAccum4 c _ _ _ _ _ _ _ _ _ _ _ _ _ _ _ _ _ _ _ _)
    unfold owns; iexists _; isplitr
    swap; · iexact H5
    ipureintro; exact View.read_writes_of_cover _ _ _ _ _ (coverAccum5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.Run.lean ====
/-
  The kernel's run put together: the body's obligation at every grid point, the launch with the image the dilation
  reads dealt among its three windows, and the scalar lines after the region.  Both images end as they were; the result
  is the clipped quotient (tp + 1) / (tp + fp + 1) of the two sums the region leaves in its result cells.
-/
import proofs.«101877_j28226525070228_2_alg».proof.Proof.Launch
import proofs.«101877_j28226525070228_2_alg».proof.Proof.BodyObl
import Idealize.ShloMosaic.Lib.StableHlo.Run

noncomputable section

namespace Cert.KernelIdeal.Run

open Idealize.ShloMosaic Idealize.ShloMosaic.TcCoe Idealize.SL.Sem Idealize.ShloMosaic.StableHlo
open Idealize.ShloMosaic.Pipeline
open Cert.KernelIdeal Cert.KernelIdeal.Gen Cert.KernelIdeal.Shared

variable {F : FTy → Type} [FloatOps F]
variable (m : (ℓ : Loc nD τ sig) → Buf (Elt F) ℓ) (ρ : Dev nD → PrngReg)

/-- The scalar arithmetic both programs end with: clip((tp + 1) / ((tp + fp) + 1)) to [0, 1]. -/
def finishS (tp fp : FVec F S_ .f32) : FVec F S_ .f32 :=
  minimumf (id (constant S_ .f32 0x3F800000#32))
    (maximumf (id (constant S_ .f32 0x00000000#32))
      (Host.divf (addf tp (constant S_ .f32 0x3F800000#32)) (addf (addf tp fp) (constant S_ .f32 0x3F800000#32))))

/-- The same from the two 1×1 result cells. -/
def finish (a b : FVec F S1x1 .f32) : FVec F S_ .f32 :=
  finishS (shapeCast S_ a shapeCasts_S1x1_S_) (shapeCast S_ b shapeCasts_S1x1_S_)

/-- Every weakly fair execution ends; the windows' arrays hold what the write-backs left, the scalar temporaries what the
    lines after the region computed. -/
theorem run_main : θ_run (defs (F := F)) (onTc (τ := τ) (main (F := F))) (s₀ m ρ) (fun r => ∀ c : Dev nD,
      (∀ w, r.2.mem ((spec0 w).arr.view.loc (c.tc : Thread nD τ)) = (Body.dats m 0 c).arrAt w cfg0.N)
      ∧ ∀ b ∈ Pipeline.restRefs sig spec0, r.2.mem ((c.tc : Thread nD τ).loc b) = tailVal m (Body.dats m) c b) :=
  run_shared m ρ (Body.dats m) (fun c => (Body.body_obligation m c).loose) (fun _ _ => rfl) (Body.A_eq m) (fun _ _ => rfl)
    (fun _ => rfl) (fun _ => rfl) (fun _ => rfl) (fun _ => rfl)

/-- The frame: the run ends and both images are as launched (a window that only reads never changes its array). -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 3).trans (((Body.dats m 0 c).arrAt_in 3 rfl _).trans (Body.A_eq m c 3)),
     ((h c).1 0).trans (((Body.dats m 0 c).arrAt_in 0 rfl _).trans (Body.A_eq m c 0))⟩) (run_main m ρ)

theorem v7_mem : main_v7 ∈ Pipeline.restRefs sig spec0 := by decide

set_option maxHeartbeats 1000000 in
/-- The result buffer after the lines: the clipped quotient of the two result cells. -/
theorem tail_v7 (dats : (p : Fin 1) → (c : Dev nD) → Dat τ (Elt F) Unit ℕ (UR sig nD τ) ℕ (cfgs p) c) (c : Dev nD) :
    tailVal m dats c main_v7 = finish ((dats 0 c).arrAt 4 cfg0.N) ((dats 0 c).arrAt 5 cfg0.N) := by
  have e0 : exitVal m dats c (Proc.devRef .tc main_v0_0) = (dats 0 c).arrAt 4 cfg0.N :=
    Pipeline.withArrays_arr outSpec outSpec_inj c _ (outsAtExit dats c) 0
  have e1 : exitVal m dats c (Proc.devRef .tc main_v0_1) = (dats 0 c).arrAt 5 cfg0.N :=
    Pipeline.withArrays_arr outSpec outSpec_inj c _ (outsAtExit dats c) 1
  unfold tailVal
  rw [← e0, ← e1]
  generalize exitVal m dats c = W
  simp only [hostOps1, hostOps1_1, List.flatten_cons, List.flatten_nil, List.append_nil, List.cons_append, List.nil_append]
  after_results
  rfl

/-- THE VALUE RUN: the run ends with the result at the clipped quotient of the two accumulated cells and both images as
    launched. -/
theorem run_value : θ_run (defs (F := F)) (onTc (τ := τ) (main (F := F))) ⟨m, fun _ => 0, ρ⟩ (fun r => ∀ c : Dev nD,
      r.2.mem ((c.tc : Thread nD τ).loc main_v7)
        = finish ((Body.dats m 0 c).arrAt 4 cfg0.N) ((Body.dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 v7_mem).trans (tail_v7 m (Body.dats m) c),
     ((h c).1 3).trans (((Body.dats m 0 c).arrAt_in 3 rfl _).trans (Body.A_eq m c 3)),
     ((h c).1 0).trans (((Body.dats m 0 c).arrAt_in 0 rfl _).trans (Body.A_eq m c 0))⟩) (run_main m ρ)

end Cert.KernelIdeal.Run

end
-- ==== Proof.KLaunch.lean ====
/-
  The launch of a kernel whose three image windows read ONE array.  The array's full share is dealt among the
  three windows that read it (a half and two quarters); the lines of host arithmetic after the region touch only
  the two result cells and the scalar temporaries, so they run beside the input shares, which are framed.
-/
import proofs.«101877_j28226525070228_2_alg».proof.Proof.Gen.Kernel.Launch
import proofs.«101877_j28226525070228_2_alg».proof.Proof.Gen.Kernel.Points
import Idealize.ShloMosaic.Lib.Pipeline.FrameSuffix

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel Cert.Kernel.Gen

variable {F : FTy → Type} [FloatOps F]

local notation "𝕄" => MT nD τ sig Unit (Elt F) ℕ (UR sig nD τ) ℕ

/-- The two result windows by themselves: their arrays are distinct buffers. -/
abbrev outSpec : Fin 2 → Pipeline.WinSpec sig grid0.rank := fun | 0 => spec0 4 | 1 => spec0 5

theorem outSpec_inj : Function.Injective (Pipeline.arrRef outSpec) := by decide

/-- The buffers the windows read or write, listed. -/
theorem arrRefs_eq : (Finset.univ.image (Pipeline.arrRef spec0)) = [main_arg1, main_arg0, main_v0_0, main_v0_1].toFinset := by decide

/-- The scalar temporaries: unscoped, no window's array. -/
theorem rest_eq : Pipeline.restRefsP sig Prefetch.none outSpec \ ({main_arg0, main_arg1} : Finset (Ref sig .tc)) = Pipeline.restRefs sig spec0 := by decide

variable (m : (ℓ : Loc nD τ sig) → Buf (Elt F) ℓ) (ρ : Dev nD → PrngReg)

/-- The windows' arrays one by one, each a whole buffer at its window's share. -/
theorem arrays_six {c : Dev nD} (dat : Dat τ (Elt F) Unit ℕ (UR sig nD τ) ℕ cfg0 c)
    (A : (w : Fin cfg0.W) → Buf (Elt F) ((cfg0.win w).arr.view.loc (c.tc : Thread nD τ))) :
    (dat.arrays A : sProp 𝕄) = iprop(
      (((c.tc : Thread nD τ).loc (Pipeline.arrRef spec0 0)) ↦{dat.share 0} A 0) ∗ (((c.tc : Thread nD τ).loc (Pipeline.arrRef spec0 1)) ↦{dat.share 1} A 1)
      ∗ (((c.tc : Thread nD τ).loc (Pipeline.arrRef spec0 2)) ↦{dat.share 2} A 2) ∗ (((c.tc : Thread nD τ).loc (Pipeline.arrRef spec0 3)) ↦{dat.share 3} A 3)
      ∗ (((c.tc : Thread nD τ).loc (Pipeline.arrRef spec0 4)) ↦{dat.share 4} A 4) ∗ (((c.tc : Thread nD τ).loc (Pipeline.arrRef spec0 5)) ↦{dat.share 5} A 5)) := by
  have h : (dat.arrays A : sProp 𝕄)
      = bigSep Finset.univ fun w : Fin 6 => (((c.tc : Thread nD τ).loc (Pipeline.arrRef spec0 w)) ↦{dat.share w} A w : sProp 𝕄) := by
    unfold Dat.arrays
    exact bigSep_congr fun w _ => by rw [(arr_whole0 w).set_eq_univ]
  rw [h, bigSep_W0]

/-- The image the dilation reads is handed to the pipeline once; its full share is dealt among the three windows
    that read it — a half, a quarter, a quarter — and the other arrays go to their one window whole. -/
theorem deal_arrays {c : Dev nD} (dat : Dat τ (Elt F) Unit ℕ (UR sig nD τ) ℕ cfg0 c)
    (hA : ∀ w, dat.A w = m ((c.tc : Thread nD τ).loc (Pipeline.arrRef spec0 w)))
    (hq0 : dat.q 0 = fullShare.left) (hq1 : dat.q 1 = fullShare.right.left)
    (hq2 : dat.q 2 = fullShare.right.right) (hq3 : dat.q 3 = fullShare) :
    (Pipeline.arrBufs spec0 c (fun b => m ((c.tc : Thread nD τ).loc b)) : sProp 𝕄) ⊢ dat.arrays (dat.arrAt · 0) := by
  have e0 : dat.share 0 = fullShare.left := (if_neg Bool.false_ne_true).trans hq0
  have e1 : dat.share 1 = fullShare.right.left := (if_neg Bool.false_ne_true).trans hq1
  have e2 : dat.share 2 = fullShare.right.right := (if_neg Bool.false_ne_true).trans hq2
  have e3 : dat.share 3 = fullShare := (if_neg Bool.false_ne_true).trans hq3
  have e4 : dat.share 4 = fullShare := if_pos rfl
  have e5 : dat.share 5 = fullShare := if_pos rfl
  rw [arrays_six, e0, e1, e2, e3, e4, e5]
  unfold Pipeline.arrBufs
  rw [bigSep_eq_bigSepL_of_eq _ arrRefs_eq (by decide)]
  show iprop((((c.tc : Thread nD τ).loc main_arg1) ↦{fullShare} m ((c.tc : Thread nD τ).loc main_arg1))
      ∗ (((c.tc : Thread nD τ).loc main_arg0) ↦{fullShare} m ((c.tc : Thread nD τ).loc main_arg0))
      ∗ (((c.tc : Thread nD τ).loc main_v0_0) ↦{fullShare} m ((c.tc : Thread nD τ).loc main_v0_0))
      ∗ (((c.tc : Thread nD τ).loc main_v0_1) ↦{fullShare} m ((c.tc : Thread nD τ).loc main_v0_1))) ⊢ iprop(
      (((c.tc : Thread nD τ).loc main_arg1) ↦{fullShare.left} dat.A 0) ∗ (((c.tc : Thread nD τ).loc main_arg1) ↦{fullShare.right.left} dat.A 1)
      ∗ (((c.tc : Thread nD τ).loc main_arg1) ↦{fullShare.right.right} dat.A 2) ∗ (((c.tc : Thread nD τ).loc main_arg0) ↦{fullShare} dat.A 3)
      ∗ (((c.tc : Thread nD τ).loc main_v0_0) ↦{fullShare} dat.A 4) ∗ (((c.tc : Thread nD τ).loc main_v0_1) ↦{fullShare} dat.A 5))
  rw [hA 0, hA 1, hA 2, hA 3, hA 4, hA 5]
  iintro ⟨H1, H0, Ha, Hb⟩
  ihave Hs := (pointsTo_share (PosShare.mem_left_op_right fullShare)).1 $$ H1
  icases Hs with ⟨Hl, Hr⟩
  ihave Hs := (pointsTo_share (PosShare.mem_left_op_right fullShare.right)).1 $$ Hr
  icases Hs with ⟨Hrl, Hrr⟩
  isplitl [Hl]; · iexact Hl
  isplitl [Hrl]; · iexact Hrl
  isplitl [Hrr]; · iexact Hrr
  isplitl [H0]; · iexact H0
  isplitl [Ha]; · iexact Ha
  iexact Hb

/-! ## The lines of host arithmetic after the region -/

/-- The buffers those lines may touch: the two result cells and the scalar temporaries — not the two images. -/
abbrev lineRefs : Finset (Ref sig .tc) :=
  Finset.univ.image (Pipeline.arrRef outSpec) ∪ (Pipeline.restRefsP sig Prefetch.none outSpec \ ({main_arg0, main_arg1} : Finset (Ref sig .tc)))

theorem lineRefs_map : Pipeline.tailRefsBut (τ := τ) sig Prefetch.none outSpec ({main_arg0, main_arg1} : Finset (Ref sig .tc))
    = lineRefs.map ⟨Proc.devRef (sig := sig) (.tc : Proc τ), Proc.devRef_injective _⟩ := rfl

theorem within1 {y : Ref sig .tc} (hy : y ∈ lineRefs) :
    ({Proc.devRef .tc y} : Finset (DevRef τ sig)) ⊆ Pipeline.tailRefsBut sig Prefetch.none outSpec ({main_arg0, main_arg1} : Finset (Ref sig .tc)) := by
  rw [lineRefs_map]; intro d hd
  rw [Finset.mem_singleton] at hd; subst hd
  exact Finset.mem_map_of_mem _ hy

theorem within2 {x y : Ref sig .tc} (hx : x ∈ lineRefs) (hy : y ∈ lineRefs) :
    ({Proc.devRef .tc x, Proc.devRef .tc y} : Finset (DevRef τ sig)) ⊆ Pipeline.tailRefsBut sig Prefetch.none outSpec ({main_arg0, main_arg1} : Finset (Ref sig .tc)) := by
  rw [lineRefs_map]; intro d hd
  rw [Finset.mem_insert, Finset.mem_singleton] at hd
  rcases hd with rfl | rfl
  · exact Finset.mem_map_of_mem _ hx
  · exact Finset.mem_map_of_mem _ hy

theorem within3 {a b y : Ref sig .tc} (ha : a ∈ lineRefs) (hb : b ∈ lineRefs) (hy : y ∈ lineRefs) :
    ({Proc.devRef .tc a, Proc.devRef .tc b, Proc.devRef .tc y} : Finset (DevRef τ sig)) ⊆ Pipeline.tailRefsBut sig Prefetch.none outSpec ({main_arg0, main_arg1} : Finset (Ref sig .tc)) := by
  rw [lineRefs_map]; intro d hd
  rw [Finset.mem_insert, Finset.mem_insert, Finset.mem_singleton] at hd
  rcases hd with rfl | rfl | rfl
  · exact Finset.mem_map_of_mem _ ha
  · exact Finset.mem_map_of_mem _ hb
  · exact Finset.mem_map_of_mem _ hy

/-- Each line reads and writes result cells and scalar temporaries only. -/
theorem lines_within : ∀ ops ∈ ([hostOps1, hostOps1_1] : List (List (HloOp τ sig (Elt F)))), ∀ op ∈ ops,
    op.bufs ⊆ Pipeline.tailRefsBut sig Prefetch.none outSpec ({main_arg0, main_arg1} : Finset (Ref sig .tc)) := by
  have h1 : (hostOps1 : List (HloOp τ sig (Elt F))).Forall fun op =>
      op.bufs ⊆ Pipeline.tailRefsBut sig Prefetch.none outSpec ({main_arg0, main_arg1} : Finset (Ref sig .tc)) :=
    ⟨within2 (by decide) (by decide), within2 (by decide) (by decide), within1 (by decide),
      within3 (by decide) (by decide) (by decide), within3 (by decide) (by decide) (by decide), within1 (by decide),
      within3 (by decide) (by decide) (by decide), within3 (by decide) (by decide) (by decide), within1 (by decide), within1 (by decide)⟩
  have h2 : (hostOps1_1 : List (HloOp τ sig (Elt F))).Forall fun op =>
      op.bufs ⊆ Pipeline.tailRefsBut sig Prefetch.none outSpec ({main_arg0, main_arg1} : Finset (Ref sig .tc)) :=
    ⟨within2 (by decide) (by decide), within3 (by decide) (by decide) (by decide), within2 (by decide) (by decide),
      within3 (by decide) (by decide) (by decide)⟩
  intro ops hops op hop
  simp only [List.mem_cons, List.mem_nil_iff, or_false] at hops
  rcases hops with rfl | rfl
  · exact (List.forall_iff_forall_mem.mp h1) op hop
  · exact (List.forall_iff_forall_mem.mp h2) op hop

/-- They allocate nothing. -/
theorem lines_fresh : ∀ ops ∈ ([hostOps1, hostOps1_1] : List (List (HloOp τ sig (Elt F)))), ∀ op ∈ ops, op.fresh = ∅ := by
  have h1 : (hostOps1 : List (HloOp τ sig (Elt F))).Forall fun op => op.fresh = ∅ := ⟨rfl, rfl, rfl, rfl, rfl, rfl, rfl, rfl, rfl, rfl⟩
  have h2 : (hostOps1_1 : List (HloOp τ sig (Elt F))).Forall fun op => op.fresh = ∅ := ⟨rfl, rfl, rfl, rfl⟩
  intro ops hops op hop
  simp only [List.mem_cons, List.mem_nil_iff, or_false] at hops
  rcases hops with rfl | rfl
  · exact (List.forall_iff_forall_mem.mp h1) op hop
  · exact (List.forall_iff_forall_mem.mp h2) op hop

theorem keeps1 {y : Ref sig .tc} (h0 : main_v0_0 ≠ y) (h1 : main_v0_1 ≠ y) :
    ∀ w, Proc.devRef .tc (Pipeline.arrRef outSpec w) ∉ ({Proc.devRef .tc y} : Finset (DevRef τ sig)) := by
  intro w; rw [Finset.mem_singleton]
  fin_cases w
  · exact StableHlo.devRef_ne_of_ne h0
  · exact StableHlo.devRef_ne_of_ne h1

/-- And none writes a result cell: each writes its own temporary. -/
theorem lines_keep : ∀ ops ∈ ([hostOps1, hostOps1_1] : List (List (HloOp τ sig (Elt F)))), ∀ op ∈ ops,
    ∀ w, Proc.devRef .tc (Pipeline.arrRef outSpec w) ∉ op.writes := by
  have h1 : (hostOps1 : List (HloOp τ sig (Elt F))).Forall fun op => ∀ w, Proc.devRef .tc (Pipeline.arrRef outSpec w) ∉ op.writes :=
    ⟨keeps1 (by decide) (by decide), keeps1 (by decide) (by decide), keeps1 (by decide) (by decide), keeps1 (by decide) (by decide),
      keeps1 (by decide) (by decide), keeps1 (by decide) (by decide), keeps1 (by decide) (by decide), keeps1 (by decide) (by decide),
      keeps1 (by decide) (by decide), keeps1 (by decide) (by decide)⟩
  have h2 : (hostOps1_1 : List (HloOp τ sig (Elt F))).Forall fun op => ∀ w, Proc.devRef .tc (Pipeline.arrRef outSpec w) ∉ op.writes :=
    ⟨keeps1 (by decide) (by decide), keeps1 (by decide) (by decide), keeps1 (by decide) (by decide), keeps1 (by decide) (by decide)⟩
  intro ops hops op hop
  simp only [List.mem_cons, List.mem_nil_iff, or_false] at hops
  rcases hops with rfl | rfl
  · exact (List.forall_iff_forall_mem.mp h1) op hop
  · exact (List.forall_iff_forall_mem.mp h2) op hop

/-! ## The run -/

section Run

variable (dats : (p : Fin 1) → (c : Dev nD) → Dat τ (Elt F) Unit ℕ (UR sig nD τ) ℕ (cfgs p) c)

/-- The two result cells at what the last write-back left. -/
def outsAtExit (c : Dev nD) : (w : Fin 2) → Buf (Elt F) ((outSpec w).arr.view.loc (c.tc : Thread nD τ))
  | 0 => (dats 0 c).arrAt 4 cfg0.N
  | 1 => (dats 0 c).arrAt 5 cfg0.N

/-- The core's buffers when the region is left: the two result cells at what the last write-back left, every
    other buffer as launched. -/
def exitVal (c : Dev nD) : Valuation τ sig (Elt F) :=
  Pipeline.withArrays outSpec c (fun b => m (c, b)) (outsAtExit dats c)

/-- Every buffer after the lines of host arithmetic that follow the region. -/
def tailVal (c : Dev nD) (b : Ref sig .tc) : Buf (Elt F) ((c.tc : Thread nD τ).loc b) :=
  StableHlo.after ([hostOps1, hostOps1_1] : List (List (HloOp τ sig (Elt F)))).flatten (exitVal m dats c) (Proc.devRef .tc b)

local notation "𝔻" => Pipeline.defs (fun q => Cfg.toPCfg (Val := Elt F) (cfgs q)) (defs₀ (F := F))

theorem arrPts_two (c : Dev nD) (A : (w : Fin 2) → Buf (Elt F) ((outSpec w).arr.view.loc (c.tc : Thread nD τ))) :
    (Pipeline.arrPts outSpec c A : sProp 𝕄)
      = iprop((((c.tc : Thread nD τ).loc main_v0_0) ↦{fullShare} A 0) ∗ (((c.tc : Thread nD τ).loc main_v0_1) ↦{fullShare} A 1)) := by
  unfold Pipeline.arrPts
  rw [bigSep_univ_eq_bigSepL [(0 : Fin 2), (1 : Fin 2)] (by decide) (by decide)]
  rfl

/-- From the region's exit the lines run beside the images' shares, which they do not touch, and leave the result cells
    as they were and the temporaries at the lines' values. -/
theorem tail_run (hq3 : ∀ c, (dats 0 c).q 3 = fullShare) (c : Dev nD) (Q' : PUnit → sProp 𝕄) :
    iprop((iprop((dats 0 c).arrays ((dats 0 c).arrAt · cfg0.N)
            ∗ Pipeline.unscopedRestP (Ix := Unit) (Name := ℕ) (U := UR sig nD τ) (Lvl := ℕ) Prefetch.none spec0 c (tailVal m dats c)) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Prefetch.none spec0 c (fun b => m ((c.tc : Thread nD τ).loc b)))
      ⊢ wp frame (wpE 𝔻 (Variants.lift Variants.none) (c.tc : Thread nD τ) none) Set.univ
          (Pipeline.chain (([hostOps1, hostOps1_1] : List (List (HloOp τ sig (Elt F)))).map StableHlo.seq)) Q' := by
  have e4 : (dats 0 c).share 4 = fullShare := if_pos rfl
  have e5 : (dats 0 c).share 5 = fullShare := if_pos rfl
  have hrest (W : (b : Ref sig .tc) → Buf (Elt F) ((c.tc : Thread nD τ).loc b)) :
      (Pipeline.unscopedRestP (Ix := Unit) (Name := ℕ) (U := UR sig nD τ) (Lvl := ℕ) Prefetch.none spec0 c W : sProp 𝕄)
        = bigSep (Pipeline.restRefsP sig Prefetch.none outSpec \ ({main_arg0, main_arg1} : Finset (Ref sig .tc)))
            fun b => (((c.tc : Thread nD τ).loc b) ↦{fullShare} W b : sProp 𝕄) := by
    rw [Pipeline.unscopedRestP_none, rest_eq]; rfl
  rw [arrays_six, e4, e5, hrest, hrest]
  have h := Pipeline.tail_seqs_but (Ix := Unit) (Name := ℕ) (U := UR sig nD τ) (Lvl := ℕ) (fun q => Cfg.toPCfg (Val := Elt F) (cfgs q)) (defs₀ (F := F)) Variants.none
    Prefetch.none outSpec outSpec_inj ({main_arg0, main_arg1} : Finset (Ref sig .tc)) c (fun b => m (c, b)) (outsAtExit dats c)
    ([hostOps1, hostOps1_1] : List (List (HloOp τ sig (Elt F)))) lines_within lines_fresh lines_keep Q'
  rw [arrPts_two] at h
  iintro ⟨Hk, Hb, ⟨H0, H1, H2, H3, H4, H5⟩, HZ⟩
  iapply h
  isplitr [Hb H4 H5 HZ]
  · iintro ⟨⟨H4, H5⟩, HZ⟩
    iapply Hk
    isplitr [HZ]
    · isplitl [H0]; · iexact H0
      isplitl [H1]; · iexact H1
      isplitl [H2]; · iexact H2
      isplitl [H3]; · iexact H3
      isplitl [H4]; · iexact H4
      iexact H5
    · iexact HZ
  · isplitl [Hb]; · iexact Hb
    isplitr [HZ]
    · isplitl [H4]; · iexact H4
      iexact H5
    · iexact HZ

end Run

section Launch

variable (dats : (p : Fin 1) → (c : Dev nD) → Dat τ (Elt F) Unit ℕ (UR sig nD τ) ℕ (cfgs p) c)

local notation "𝔻" => Pipeline.defs (fun q => Cfg.toPCfg (Val := Elt F) (cfgs q)) (defs₀ (F := F))

/-- @main is the region, then the two stretches of host arithmetic. -/
theorem main_around : Pipeline.HMainK (Ix := Unit) (Name := ℕ) (U := UR sig nD τ) (Lvl := ℕ) cfgs (0 : Fin 1) (defs₀ (F := F)) Variants.none m (main (F := F))
    (fun c b => (fun b => m (c, b) : Valuation τ sig (Elt F)) (Proc.devRef .tc b))
    (fun _ => Pipeline.chain (([hostOps1, hostOps1_1] : List (List (HloOp τ sig (Elt F)))).map StableHlo.seq)) :=
  Pipeline.hmain_around cfgs (0 : Fin 1) defs₀ Variants.none m main [] [hostOps1, hostOps1_1] trivial trivial
    (fun c => (main_chain c).trans rfl)

set_option backward.isDefEq.respectTransparency.types false in
/-- THE RUN. From any memory with zero counters every weakly fair execution of @main ends, faulting nowhere, with every
    window's array at what the write-backs left (an image: as launched) and every other unscoped buffer at the value
    the lines after the region give it. -/
theorem run_shared
    (hbody : ∀ c, BodyObligationLoose (dats 0 c) (defs₀ (F := F)) Variants.none () Set.univ)
    (howed : ∀ c t, (dats 0 c).owed t = 0)
    (hA : ∀ c w, (dats 0 c).A w = m ((c.tc : Thread nD τ).loc (Pipeline.arrRef spec0 w)))
    (hΦ : ∀ c t, (dats 0 c).Φ t = Pipeline.ΦA spec0 c)
    (hq0 : ∀ c, (dats 0 c).q 0 = fullShare.left) (hq1 : ∀ c, (dats 0 c).q 1 = fullShare.right.left)
    (hq2 : ∀ c, (dats 0 c).q 2 = fullShare.right.right) (hq3 : ∀ c, (dats 0 c).q 3 = fullShare) :
    θ_run (defs (F := F)) (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = tailVal m dats c b) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ (defs₀ (F := F)) Variants.none m ρ (main (F := F))
    (fun _ => Pipeline.chain (([hostOps1, hostOps1_1] : List (List (HloOp τ sig (Elt F)))).map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := fun c b => (fun b => m (c, b) : Valuation τ sig (Elt F)) (Proc.devRef .tc b)) (hmain := main_around m)
    (hsplit := fun c => deal_arrays m (dats 0 c) (hA c) (hq0 c) (hq1 c) (hq2 c) (hq3 c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Prefetch.none spec0 c (fun b => m ((c.tc : Thread nD τ).loc b)))
    (Z' := fun c => Pipeline.unscopedRestP (Ix := Unit) (Name := ℕ) (U := UR sig nD τ) (Lvl := ℕ) Prefetch.none spec0 c (tailVal m dats c))
    (hX := fun c => by
      iintro ⟨HU, -, -, -, Hp, -⟩; imodintro
      isplitl [Hp]; · iexists _; iexact Hp
      iexact HU)
    (hin := fun c => by
      rw [hΦ]; unfold Pipeline.ΦA; iintro ⟨Hp, Ht, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_run m dats hq3 c Q')
    (QY := fun c s => ∀ b ∈ Pipeline.restRefsP sig Prefetch.none spec0, s.mem ((c.tc : Thread nD τ).loc b) = tailVal m dats c b)
    (hY := fun c s' => by
      iintro ⟨-, HU, HSI⟩
      unfold Pipeline.unscopedRestP
      imodintro
      iapply (pointsTo_read_all (Pipeline.restRefsP sig Prefetch.none spec0) (fun b => (c.tc : Thread nD τ).loc b) (tailVal m dats c) s')
      isplitl [HU] <;> iassumption)
    (hQ := fun s h c => ⟨(h c).1, fun b hb => (h c).2.2 b (by rw [Pipeline.restRefsP]; simpa using hb)⟩)

end Launch

end Cert.Kernel.Shared

end
-- ==== Proof.KBodyBase.lean ====
/- What the kernel body's obligation is stated over, before any run of the body: the arrays as the region finds
   them, each window's block read off its array, the body's one branch condition in closed form over the 64 grid
   points, the staging memrefs the body is called with at a point, and — for each of the four input windows — that
   its current staging buffer holds its block at every point. Three of the input windows read one array; nothing
   here depends on that: a block is a read of the array's contents, whichever window reads it. -/
import proofs.«101877_j28226525070228_2_alg».proof.Proof.Gen.Kernel.Launch
import proofs.«101877_j28226525070228_2_alg».proof.Proof.Gen.Kernel.Skeleton
import proofs.«101877_j28226525070228_2_alg».proof.Proof.Gen.Kernel.Points
import Idealize.ShloMosaic.Lib.Pipeline.FrameBody
import Idealize.ShloMosaic.Lib.Ring
import Idealize.ShloMosaic.Lib.Tactic

-- membership in a rectangle of the 64×8192 blocks: the elaborator's structural look recurses once per
-- coordinate of the long axis
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s TensorCore buffers when the region is entered: the region is the program's first line, so they are the
    buffers as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The inputs' buffers at a point -/

/-- Input window 0's current staging buffer holds its block at every point, whether the point fetched it or not, for
    any proof data whose array there is the region-entry contents and whose body leaves the block in place: an
    unfetched point has the block index of the point before it, the window is uncut and never idle. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the point fetched it or not, for
    any proof data whose array there is the region-entry contents and whose body leaves the block in place: an
    unfetched point has the block index of the point before it, the window is uncut and never idle. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the point fetched it or not, for
    any proof data whose array there is the region-entry contents and whose body leaves the block in place: an
    unfetched point has the block index of the point before it, the window is uncut and never idle. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the point fetched it or not, for
    any proof data whose array there is the region-entry contents and whose body leaves the block in place: an
    unfetched point has the block index of the point before it, the window is uncut and never idle. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional — the accumulators' reset — from the grid coordinates: the
    skeleton's scalar chain, substituted. -/
abbrev atReset (i : grid0.Coords) : Prop := (Scalar.cmpi .ne (Scalar.extui (Scalar.cmpi .eq (BitVec.ofNat 32 (i 0).val) 0#32)) 0#32) = 1#1
/-- It holds at the first point only: decided over the 64 points. -/
theorem atReset_iff : ∀ t : Fin cfg0.N, atReset (grid0.coords t) ↔ t.val % 64 = 0 :=
  (by decide +kernel : ∀ t : Fin grid0.N, atReset (grid0.coords t) ↔ t.val % 64 = 0)

/-! ## The staging memrefs at a point -/

/-- Each window's current staging memref at point `t`, spelled as the pipeline passes it to the body, and its
    wholeness. -/
abbrev stg0 (t : Fin cfg0.N) : Memref sig .tc .vmem S64x8192 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S8x8192 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S8x8192 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S64x8192 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S1x1 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x1 .f32 := win0_5.stage (cfg0.slots t 5)
abbrev stg5_whole (t : Fin cfg0.N) : (stg5 t).IsWhole := hstage0_5 ((cfg0.slots t 5).cast nbuf0_5)

end Cert.Kernel.Body

end
-- ==== Proof.KBodyRunA.lean ====
/- The kernel body's triple at the grid's FIRST point, where the conditional resets both accumulators before they are
   read: on whole staging memrefs, the four inputs' at their contents and the two outputs' at ANY contents, the body
   runs to a continuation holding the inputs' as they were and each output's with the pieces its stores wrote. The
   pieces are not transcribed: they are the witness of a subtype, found when the run hands the buffers over. -/
import proofs.«101877_j28226525070228_2_alg».proof.Proof.KBodyBase

-- membership in a rectangle of the 64×8192 blocks: the elaborator's structural look recurses once per
-- coordinate of the long axis
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the run's proof term is large
set_option maxHeartbeats 1000000 in
/-- The pieces (last first) the body's stores leave in the two outputs' staging memrefs when the reset is taken, with
    the run that finds them. -/
noncomputable def runReset (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Body

end
-- ==== Proof.KBodyRunB.lean ====
/- The kernel body's triple at a LATER point of the grid, where the conditional is not taken and both accumulators are
   read before they are stored: on whole staging memrefs, the four inputs' at their contents and the two outputs' at
   their running contents, the body runs to a continuation holding the inputs' as they were and each output's with the
   pieces its stores wrote — the witness of a subtype, found when the run hands the buffers over. -/
import proofs.«101877_j28226525070228_2_alg».proof.Proof.KBodyRunA

-- membership in a rectangle of the 64×8192 blocks: the elaborator's structural look recurses once per
-- coordinate of the long axis
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the run's proof term is large
set_option maxHeartbeats 1000000 in
/-- The pieces (last first) the body's stores leave in the two outputs' staging memrefs when the reset is not taken,
    over the running contents `xo4`, `xo5` the accumulators are handed at, with the run that finds them. -/
noncomputable def runAccum (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) :
    { L : List (View.Piece (Elt F) S1x1 .f32) × List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2)) -∗ K ⟨⟩))
          ⊢ wp frame (wpE (defs₀ (F := F)) Variants.none c none) E (cc0__kernel i arg1 harg1 arg2 harg2 arg3 harg3 arg4 harg4 arg5 harg5 arg6 harg6) K } := by
  refine ⟨(?_, ?_), fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Body

end
-- ==== Proof.KBodyData.lean ====
/- The pipeline's proof data for the kernel: what each case of the body leaves in the two accumulated outputs (its
   stores' pieces cover the one-element block, so the buffer is their read-back whatever it held), what the outputs
   hold after each point by recursion on the point — reset at the first point, added to over what the point before
   left at every later one —, and the proof data itself with what each window's staging buffer holds before and after
   the body. Three input windows read one array, so that array's share is dealt among them: a half, a quarter and a
   quarter. -/
import proofs.«101877_j28226525070228_2_alg».proof.Proof.KBodyRunB

-- membership in a rectangle of the 64×8192 blocks: the elaborator's structural look recurses once per
-- coordinate of the long axis
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves in the outputs -/

/-- One staging buffer of each output window, through which its contents are stated: the read-back of covering
    pieces does not depend on the choice. -/
abbrev outView4 : View sig .tc .vmem S1x1 .f32 := (Memref.whole cc0_stg4_0 : Memref sig .tc .vmem S1x1 .f32).view
abbrev outView5 : View sig .tc .vmem S1x1 .f32 := (Memref.whole cc0_stg5_0 : Memref sig .tc .vmem S1x1 .f32).view

/-- The reset case's pieces for output 4 tile its one-element block (2 stores of `S1x1`, checked by evaluating the
    pieces' rectangles), so they cover it. -/
theorem coverReset4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) (y : S1x1.Idx) :
    ∃ pc ∈ (runReset c i arg1 harg1 arg2 harg2 arg3 harg3 arg4 harg4 arg5 harg5 arg6 harg6 hc0 x0 x1 x2 x3).1.1, y ∈ pc.1.set :=
  View.cover_of_tiledL (runReset c i arg1 harg1 arg2 harg2 arg3 harg3 arg4 harg4 arg5 harg5 arg6 harg6 hc0 x0 x1 x2 x3).1.1 S1x1.size (by sl_kernel_rfl) y

/-- What the reset case leaves in output 4's staging buffer: its pieces read back over junk. -/
def outReset4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) : Vec F S1x1 .f32 :=
  outView4.read (Elt F) (outView4.writes (Elt F) outView4.junk (runReset c i arg1 harg1 arg2 harg2 arg3 harg3 arg4 harg4 arg5 harg5 arg6 harg6 hc0 x0 x1 x2 x3).1.1)

/-- The reset case's pieces for output 5 tile its one-element block (2 stores of `S1x1`, checked by evaluating the
    pieces' rectangles), so they cover it. -/
theorem coverReset5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) (y : S1x1.Idx) :
    ∃ pc ∈ (runReset c i arg1 harg1 arg2 harg2 arg3 harg3 arg4 harg4 arg5 harg5 arg6 harg6 hc0 x0 x1 x2 x3).1.2, y ∈ pc.1.set :=
  View.cover_of_tiledL (runReset c i arg1 harg1 arg2 harg2 arg3 harg3 arg4 harg4 arg5 harg5 arg6 harg6 hc0 x0 x1 x2 x3).1.2 S1x1.size (by sl_kernel_rfl) y

/-- What the reset case leaves in output 5's staging buffer: its pieces read back over junk. -/
def outReset5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) : Vec F S1x1 .f32 :=
  outView5.read (Elt F) (outView5.writes (Elt F) outView5.junk (runReset c i arg1 harg1 arg2 harg2 arg3 harg3 arg4 harg4 arg5 harg5 arg6 harg6 hc0 x0 x1 x2 x3).1.2)

/-- The accumulating case's pieces for output 4 tile its one-element block (1 store of `S1x1`, checked by evaluating the
    pieces' rectangles), so they cover it. -/
theorem coverAccum4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) (y : S1x1.Idx) :
    ∃ pc ∈ (runAccum c i arg1 harg1 arg2 harg2 arg3 harg3 arg4 harg4 arg5 harg5 arg6 harg6 hc0 x0 x1 x2 x3 xo4 xo5).1.1, y ∈ pc.1.set :=
  View.cover_of_tiledL (runAccum c i arg1 harg1 arg2 harg2 arg3 harg3 arg4 harg4 arg5 harg5 arg6 harg6 hc0 x0 x1 x2 x3 xo4 xo5).1.1 S1x1.size (by sl_kernel_rfl) y

/-- What the accumulating case leaves in output 4's staging buffer: its pieces read back over junk. -/
def outAccum4 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) : Vec F S1x1 .f32 :=
  outView4.read (Elt F) (outView4.writes (Elt F) outView4.junk (runAccum c i arg1 harg1 arg2 harg2 arg3 harg3 arg4 harg4 arg5 harg5 arg6 harg6 hc0 x0 x1 x2 x3 xo4 xo5).1.1)

/-- The accumulating case's pieces for output 5 tile its one-element block (1 store of `S1x1`, checked by evaluating the
    pieces' rectangles), so they cover it. -/
theorem coverAccum5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) (y : S1x1.Idx) :
    ∃ pc ∈ (runAccum c i arg1 harg1 arg2 harg2 arg3 harg3 arg4 harg4 arg5 harg5 arg6 harg6 hc0 x0 x1 x2 x3 xo4 xo5).1.2, y ∈ pc.1.set :=
  View.cover_of_tiledL (runAccum c i arg1 harg1 arg2 harg2 arg3 harg3 arg4 harg4 arg5 harg5 arg6 harg6 hc0 x0 x1 x2 x3 xo4 xo5).1.2 S1x1.size (by sl_kernel_rfl) y

/-- What the accumulating case leaves in output 5's staging buffer: its pieces read back over junk. -/
def outAccum5 (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) : Vec F S1x1 .f32 :=
  outView5.read (Elt F) (outView5.writes (Elt F) outView5.junk (runAccum c i arg1 harg1 arg2 harg2 arg3 harg3 arg4 harg4 arg5 harg5 arg6 harg6 hc0 x0 x1 x2 x3 xo4 xo5).1.2)

/-! ## What the outputs hold after each point -/

/-- What the reset case leaves in the two outputs at point `t`: run at the point's memrefs and input blocks. -/
def leftReset (c : Dev nD) (t : Fin cfg0.N) (h0 : t.val % 64 = 0) : Vec F S1x1 .f32 × Vec F S1x1 .f32 :=
  (outReset4 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t),
   outReset5 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t))

/-- What the accumulating case leaves in the two outputs at point `t`, over running contents `xo`. -/
def leftAccum (c : Dev nD) (t : Fin cfg0.N) (h0 : ¬t.val % 64 = 0) (xo : Vec F S1x1 .f32 × Vec F S1x1 .f32) : Vec F S1x1 .f32 × Vec F S1x1 .f32 :=
  (outAccum4 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t) xo.1 xo.2,
   outAccum5 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t) xo.1 xo.2)

/-- THE ACCUMULATION. What the two outputs' staging buffers hold after the body at position `n`: at the first point the
    reset case; at a later one the accumulating case over what this leaves at `n - 1` (the buffers are not written
    back between). -/
def outsAt (c : Dev nD) : (n : ℕ) → n < cfg0.N → Vec F S1x1 .f32 × Vec F S1x1 .f32
  | 0, hn => leftReset m c ⟨0, hn⟩ (Nat.zero_mod _)
  | n + 1, hn =>
    if h0 : (n + 1) % 64 = 0 then leftReset m c ⟨n + 1, hn⟩ h0
    else leftAccum m c ⟨n + 1, hn⟩ h0 (outsAt c n (Nat.lt_of_succ_lt hn))

/-- `outsAt` at a point where the reset is taken. -/
theorem outsAt_reset (c : Dev nD) (t : Fin cfg0.N) (h0 : t.val % 64 = 0) :
    outsAt m c t.val t.isLt = leftReset m c t h0 := by
  obtain ⟨n, hn⟩ := t
  cases n with
  | zero => exact rfl
  | succ n => exact (dif_pos h0).trans rfl

/-- `outsAt` at a later point: the accumulating case over what the point before left. -/
theorem outsAt_accum (c : Dev nD) (t : Fin cfg0.N) (h0 : ¬t.val % 64 = 0) :
    outsAt m c t.val t.isLt = leftAccum m c t h0 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The case equations one output at a time, as the obligation reads them (a pair's component, reduced). -/
theorem outsAt_reset_fst (c : Dev nD) (t : Fin cfg0.N) (h0 : t.val % 64 = 0) :
    (outsAt m c t.val t.isLt).1 = outReset4 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t) := by
  rw [outsAt_reset m c t h0]; rfl
theorem outsAt_reset_snd (c : Dev nD) (t : Fin cfg0.N) (h0 : t.val % 64 = 0) :
    (outsAt m c t.val t.isLt).2 = outReset5 c (grid0.coords t) (stg0 t) (stg0_whole t) (stg1 t) (stg1_whole t) (stg2 t) (stg2_whole t) (stg3 t) (stg3_whole t) (stg4 t) (stg4_whole t) (stg5 t) (stg5_whole t) ((atReset_iff t).mpr h0) (iblk m c 0 t) (iblk m c 1 t) (iblk m c 2 t) (iblk m c 3 t) := by
  rw [outsAt_reset m c t h0]; rfl
theorem outsAt_accum_fst (c : Dev nD) (t : Fin cfg0.N) (h0 : ¬t.val % 64 = 0) :
    (outsAt m c t.val t.isLt).1 = outAccum4 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t)
      (outsAt m c (t.val - 1) (Nat.lt_of_le_of_lt (Nat.sub_le _ _) t.isLt)).1 (outsAt m c (t.val - 1) (Nat.lt_of_le_of_lt (Nat.sub_le _ _) t.isLt)).2 := by
  rw [outsAt_accum m c t h0]; rfl
theorem outsAt_accum_snd (c : Dev nD) (t : Fin cfg0.N) (h0 : ¬t.val % 64 = 0) :
    (outsAt m c t.val t.isLt).2 = outAccum5 c (grid0.coords t) (stg0 t) (stg0_whole t) (stg1 t) (stg1_whole t) (stg2 t) (stg2_whole t) (stg3 t) (stg3_whole t) (stg4 t) (stg4_whole t) (stg5 t) (stg5_whole t) (fun h => h0 ((atReset_iff t).mp h)) (iblk m c 0 t) (iblk m c 1 t) (iblk m c 2 t) (iblk m c 3 t)
      (outsAt m c (t.val - 1) (Nat.lt_of_le_of_lt (Nat.sub_le _ _) t.isLt)).1 (outsAt m c (t.val - 1) (Nat.lt_of_le_of_lt (Nat.sub_le _ _) t.isLt)).2 := by
  rw [outsAt_accum m c t h0]; rfl

/-! ## The pipeline's proof data -/

/-- The proof data of the one pipeline on core `c`: the arrays as the region finds them; after the body at point `t`
    each input's buffer at its block and the two outputs' at `outsAt`; the invariant the scoped rest and the generator
    register; nothing owed; the array three input windows read held a half, a quarter and a quarter, every other array
    whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q := fun w => match w with | ⟨0,_⟩ => fullShare.left | ⟨1,_⟩ => fullShare.right.left | ⟨2,_⟩ => fullShare.right.right | _ => fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window (the proof data's `match` reduced). -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]
theorem after5 (c : Dev nD) (t : Fin cfg0.N) : (dats m 0 c).after 5 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- At a later point output 4's staging buffer holds what the body left at the point before: the point is not the
    first, the buffer is written back at the last point only, the window is live and uncut. -/
theorem before4_accum (c : Dev nD) (t : Fin cfg0.N) (h0 : ¬t.val % 64 = 0) (d) :
    (dats m 0 c).before 4 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for output 5. -/
theorem before5_accum (c : Dev nD) (t : Fin cfg0.N) (h0 : ¬t.val % 64 = 0) (d) :
    (dats m 0 c).before 5 t d = (outsAt m c (t.val - 1) (Nat.lt_of_le_of_lt (Nat.sub_le _ _) t.isLt)).2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

end Cert.Kernel.Body

end
-- ==== Proof.KBodyObl.lean ====
/- The kernel body's obligation to the pipeline, at every point of the grid: the inputs' staging memrefs hold their
   blocks; the closed form of the branch condition says whether the point resets the accumulators or adds to them, and
   at an adding point each accumulator's buffer holds what the point before left; so the case's run applies, and what
   it leaves in each output — pieces covering the block — reads back as the proof data say. The invariant passes
   through untouched and the core owes nothing throughout. -/
import proofs.«101877_j28226525070228_2_alg».proof.Proof.KBodyData

-- membership in a rectangle of the 64×8192 blocks: the elaborator's structural look recurses once per
-- coordinate of the long axis
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The obligation at a generic point -/

/-- What the body is called with at point `t`: the obligation's precondition, the six windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  have hN : t.val < 64 := lt_of_lt_of_eq t.isLt (show cfg0.N = 64 from N_0)
  by_cases h0 : t.val % 64 = 0
  · rw [outsAt_reset_fst m c t h0, outsAt_reset_snd m c t h0]
    unfold outReset4 outReset5
    iintro ⟨HΦ, Ho, ⟨%d0, H0⟩, ⟨%d1, H1⟩, ⟨%d2, H2⟩, ⟨%d3, H3⟩, ⟨%d4, H4⟩, ⟨%d5, H5⟩⟩
    iapply ((runReset c (grid0.coords t) _ _ _ _ _ _ _ _ _ _ _ _ ((atReset_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverReset4 c _ _ _ _ _ _ _ _ _ _ _ _ _ _ _ _ _ _)
    unfold owns; iexists _; isplitr
    swap; · iexact H5
    ipureintro; exact View.read_writes_of_cover _ _ _ _ _ (coverReset5 c _ _ _ _ _ _ _ _ _ _ _ _ _ _ _ _ _ _)
  · rw [outsAt_accum_fst m c t h0, outsAt_accum_snd m c t h0]
    simp only [before4_accum m c t h0, before5_accum m c t h0]
    unfold outAccum4 outAccum5
    iintro ⟨HΦ, Ho, ⟨%d0, H0⟩, ⟨%d1, H1⟩, ⟨%d2, H2⟩, ⟨%d3, H3⟩, ⟨%d4, H4⟩, ⟨%d5, H5⟩⟩
    iapply ((runAccum c (grid0.coords t) _ _ _ _ _ _ _ _ _ _ _ _ (fun h => h0 ((atReset_iff t).mp h)) (iblk m c 0 t) (iblk m c 1 t) (iblk m c 2 t) (iblk m c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverAccum4 c _ _ _ _ _ _ _ _ _ _ _ _ _ _ _ _ _ _ _ _)
    unfold owns; iexists _; isplitr
    swap; · iexact H5
    ipureintro; exact View.read_writes_of_cover _ _ _ _ _ (coverAccum5 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KRun.lean ====
/-
  The same kernel read at the word level: the body's obligation at every grid point, the launch with the image the
  dilation reads dealt among its three windows, the scalar lines after the region.  Both images end as they were.
-/
import proofs.«101877_j28226525070228_2_alg».proof.Proof.KLaunch
import proofs.«101877_j28226525070228_2_alg».proof.Proof.KBodyObl
import Idealize.ShloMosaic.Lib.StableHlo.Run

noncomputable section

namespace Cert.Kernel.Run

open Idealize.ShloMosaic Idealize.ShloMosaic.TcCoe Idealize.SL.Sem Idealize.ShloMosaic.StableHlo
open Idealize.ShloMosaic.Pipeline
open Cert.Kernel Cert.Kernel.Gen Cert.Kernel.Shared

variable {F : FTy → Type} [FloatOps F]
variable (m : (ℓ : Loc nD τ sig) → Buf (Elt F) ℓ) (ρ : Dev nD → PrngReg)

/-- Every weakly fair execution ends; the windows' arrays hold what the write-backs left, the scalar temporaries what the
    lines after the region computed. -/
theorem run_main : θ_run (defs (F := F)) (onTc (τ := τ) (main (F := F))) (s₀ m ρ) (fun r => ∀ c : Dev nD,
      (∀ w, r.2.mem ((spec0 w).arr.view.loc (c.tc : Thread nD τ)) = (Body.dats m 0 c).arrAt w cfg0.N)
      ∧ ∀ b ∈ Pipeline.restRefs sig spec0, r.2.mem ((c.tc : Thread nD τ).loc b) = tailVal m (Body.dats m) c b) :=
  run_shared m ρ (Body.dats m) (fun c => (Body.body_obligation m c).loose) (fun _ _ => rfl) (Body.A_eq m) (fun _ _ => rfl)
    (fun _ => rfl) (fun _ => rfl) (fun _ => rfl) (fun _ => rfl)

/-- The frame: the run ends and both images are as launched (a window that only reads never changes its array). -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 3).trans (((Body.dats m 0 c).arrAt_in 3 rfl _).trans (Body.A_eq m c 3)),
     ((h c).1 0).trans (((Body.dats m 0 c).arrAt_in 0 rfl _).trans (Body.A_eq m c 0))⟩) (run_main m ρ)

end Cert.Kernel.Run

end
-- ==== Proof.Spec.lean ====
/-
  The mathematical content shared by the two programs: a 3×3 grayscale dilation (the maximum over the
  3×3 neighbourhood, positions outside the image counting as −∞) of a 4096×8192 image, written
  SEPARABLY — first the maximum over the three rows, then over the three columns of that —, and the two
  sums the loss is made of.  Max is associative, commutative and idempotent on the extended reals, so the
  separable form is the neighbourhood maximum.
-/
import Idealize.ShloMosaic.PureOps.Ideal
import Idealize.ShloMosaic.Lib.ValueIdx

noncomputable section

open scoped BigOperators

namespace Cert.Dilate

open Idealize.ShloMosaic Idealize.ShloMosaic.ValueIdx

/-- The image's shape. -/
abbrev Img : Shape := ⟨2, ![4096, 8192]⟩

/-- The maximum of an entry and its neighbours in the row below (R+1) and the row above (R−1); a missing
    neighbour counts as −∞. -/
def vmax (x : Img.Idx → EReal) (R : Fin 4096) (c : Fin 8192) : EReal :=
  max (max (x (ix2 R c)) (if h : R.val + 1 < 4096 then x (ix2 ⟨R.val + 1, h⟩ c) else ⊥))
    (if h : 0 < R.val then x (ix2 ⟨R.val - 1, by omega⟩ c) else ⊥)

/-- The dilated image: the maximum of the vertical maximum at a column and at its left (c−1) and right (c+1)
    neighbours; a missing neighbour counts as −∞. This is the maximum of `x` over the 3×3 neighbourhood. -/
def dil (x : Img.Idx → EReal) (R : Fin 4096) (c : Fin 8192) : EReal :=
  max (max (vmax x R c) (if h : 0 < c.val then vmax x R ⟨c.val - 1, by omega⟩ else ⊥))
    (if h : c.val + 1 < 8192 then vmax x R ⟨c.val + 1, h⟩ else ⊥)

/-- Σ inputs · dilate(targets). `one` is never used here. -/
def TP (x0 x1 : Img.Idx → EReal) : EReal :=
  ∑ R : Fin 4096, ∑ c : Fin 8192, x0 (ix2 R c) * dil x1 R c

/-- Σ (one − dilate(targets)) · inputs, for the constant `one` both programs spell with the same word. -/
def FP (one : EReal) (x0 x1 : Img.Idx → EReal) : EReal :=
  ∑ R : Fin 4096, ∑ c : Fin 8192, (one - dil x1 R c) * x0 (ix2 R c)

end Cert.Dilate

end
-- ==== Proof.DilateRef.lean ====
/-
  The reference's 3×3 windowed maximum, read at an index, is the separable dilation of the specification.

  A windowed reduction folds the nine positions of the window in row-major order, a position outside the
  image contributing the initial value. With the initial value −∞ — the identity of the maximum on the
  extended reals — the fold is the maximum of the image over the part of the 3×3 neighbourhood that lies
  inside the image, and the separable form (rows first, then columns) is the same maximum, the maximum being
  associative and commutative.
-/
import proofs.«101877_j28226525070228_2_alg».proof.Proof.Spec
import proofs.«101877_j28226525070228_2_alg».proof.Proof.Gen.ReferenceIdeal.Read
import Idealize.ShloMosaic.PureOps.Contract

noncomputable section

open scoped BigOperators

namespace Cert.DilateRef

open Idealize.ShloMosaic Idealize.ShloMosaic.ValueIdx Cert.Dilate

/-- The window's shape. -/
abbrev Win : Shape := ⟨2, ![3, 3]⟩

/-- The window has nine positions. -/
theorem win_numel : Win.numel = 9 := by decide

/-- A left fold over nine positions, written out. -/
theorem foldl_finRange_nine {β : Type} {n : ℕ} (hn : n = 9) (g : β → Fin n → β) (v : β) :
    (List.finRange n).foldl g v =
      g (g (g (g (g (g (g (g (g v ⟨0, by omega⟩) ⟨1, by omega⟩) ⟨2, by omega⟩) ⟨3, by omega⟩) ⟨4, by omega⟩)
        ⟨5, by omega⟩) ⟨6, by omega⟩) ⟨7, by omega⟩) ⟨8, by omega⟩ := by
  subst hn; rfl

/-- Row-major position `n` of the 3×3 window is its row `n / 3`, column `n % 3`. -/
theorem win_symm (n : Fin Win.numel) :
    Win.rowMajor.symm n = ix2 (n0 := 3) (n1 := 3) ⟨n.val / 3, by have := n.isLt; have := win_numel; omega⟩
      ⟨n.val % 3, by omega⟩ := by
  rw [Equiv.symm_apply_eq]
  apply Fin.ext
  rw [Shape.rowMajor_val_two]
  show n.val = n.val / 3 * 3 + n.val % 3
  omega

/-- The padded image's entry under position `(wr, wc)` of the window at `(R, c)`: the image's entry at
    `(R + wr − 1, c + wc − 1)` where that lies inside the image, the padding value `v` elsewhere. -/
def wterm (x : Img.Idx → EReal) (v : EReal) (R : Fin 4096) (c : Fin 8192) (wr wc : ℕ) : EReal :=
  if h : (1 ≤ R.val + wr ∧ R.val + wr - 1 < 4096) ∧ (1 ≤ c.val + wc ∧ c.val + wc - 1 < 8192) then
    x (ix2 ⟨R.val + wr - 1, h.1.2⟩ ⟨c.val + wc - 1, h.2.2⟩) else v

/-- A padded position `p` (low padding one on both axes) whose coordinates are `R + wr` and `c + wc` reads
    `wterm`. -/
theorem pad_term (x : Img.Idx → EReal) (v : EReal) (R : Fin 4096) (c : Fin 8192) (p : Fin 2 → ℕ) (wr wc : ℕ)
    (h0 : p 0 = R.val + wr) (h1 : p 1 = c.val + wc) :
    (if hin : ∀ a : Fin 2, (![1, 1] : Fin 2 → ℕ) a ≤ p a
          ∧ p a - (![1, 1] : Fin 2 → ℕ) a < (![4096, 8192] : Fin 2 → ℕ) a
      then x (fun a => ⟨p a - (![1, 1] : Fin 2 → ℕ) a, (hin a).2⟩) else v) = wterm x v R c wr wc := by
  unfold wterm
  by_cases hc : (1 ≤ R.val + wr ∧ R.val + wr - 1 < 4096) ∧ (1 ≤ c.val + wc ∧ c.val + wc - 1 < 8192)
  · have hin : ∀ a : Fin 2, (![1, 1] : Fin 2 → ℕ) a ≤ p a
        ∧ p a - (![1, 1] : Fin 2 → ℕ) a < (![4096, 8192] : Fin 2 → ℕ) a := by
      intro a
      fin_cases a
      · simpa [h0] using hc.1
      · simpa [h1] using hc.2
    rw [dif_pos hin, dif_pos hc]
    congr 1
    funext a
    fin_cases a
    · apply Fin.ext; simp [h0]
    · apply Fin.ext; simp [h1]
  · rw [dif_neg hc, dif_neg]
    intro hin
    apply hc
    have a0 := hin 0
    have a1 := hin 1
    simp [h0, h1] at a0 a1
    exact ⟨a0, a1⟩

/-- The windowed reduction's term at window position `n` (stride one, low padding one) is `wterm` at the
    position's row and column. -/
theorem pad_term_win (x : Img.Idx → EReal) (v : EReal) (R : Fin 4096) (c : Fin 8192) (e : 2 = Img.rank)
    (n : Fin Win.numel) :
    (if hin : ∀ a : Fin 2, (![1, 1] : Fin 2 → ℕ) a
          ≤ ((ix2 R c : Img.Idx) (Fin.cast e a)).val * (![1, 1] : Fin 2 → ℕ) a + (Win.rowMajor.symm n a).val
        ∧ ((ix2 R c : Img.Idx) (Fin.cast e a)).val * (![1, 1] : Fin 2 → ℕ) a + (Win.rowMajor.symm n a).val
            - (![1, 1] : Fin 2 → ℕ) a < (![4096, 8192] : Fin 2 → ℕ) a
      then x (fun a => ⟨((ix2 R c : Img.Idx) (Fin.cast e a)).val * (![1, 1] : Fin 2 → ℕ) a
          + (Win.rowMajor.symm n a).val - (![1, 1] : Fin 2 → ℕ) a, (hin a).2⟩) else v)
      = wterm x v R c (n.val / 3) (n.val % 3) :=
  pad_term x v R c
    (fun a => ((ix2 R c : Img.Idx) (Fin.cast e a)).val * (![1, 1] : Fin 2 → ℕ) a + (Win.rowMajor.symm n a).val)
    _ _
    (by show R.val * 1 + (Win.rowMajor.symm n 0).val = R.val + n.val / 3
        rw [win_symm, Nat.mul_one])
    (by show c.val * 1 + (Win.rowMajor.symm n 1).val = c.val + n.val % 3
        rw [win_symm, Nat.mul_one])

/-- The 3×3 windowed reduction (stride one, padding one on every side) at `(R, c)`: the fold of `f`, from the
    initial value, over the nine entries of the padded image under the window, row by row. -/
theorem reduceWindow_nine (f : EReal → EReal → EReal) (x : Img.Idx → EReal) {u : Shape} (init : u.Idx → EReal)
    (h : Img.ReduceWindows ![3, 3] ![1, 1] ![1, 1] ![1, 1] Img) (hu : 0 < u.numel) (R : Fin 4096) (c : Fin 8192) :
    Host.reduceWindow f ![3, 3] ![1, 1] ![1, 1] ![1, 1] x init h hu (ix2 R c) =
      f (f (f (f (f (f (f (f (f (init (Shape.Idx.first hu))
        (wterm x (init (Shape.Idx.first hu)) R c 0 0)) (wterm x (init (Shape.Idx.first hu)) R c 0 1))
        (wterm x (init (Shape.Idx.first hu)) R c 0 2)) (wterm x (init (Shape.Idx.first hu)) R c 1 0))
        (wterm x (init (Shape.Idx.first hu)) R c 1 1)) (wterm x (init (Shape.Idx.first hu)) R c 1 2))
        (wterm x (init (Shape.Idx.first hu)) R c 2 0)) (wterm x (init (Shape.Idx.first hu)) R c 2 1))
        (wterm x (init (Shape.Idx.first hu)) R c 2 2) := by
  unfold Host.reduceWindow
  simp only []
  rw [foldl_finRange_nine win_numel]
  simp only [pad_term_win]

/-- The image extended by −∞ past its last row and column: entries named by natural-number coordinates. -/
def pz (x : Img.Idx → EReal) (i j : ℕ) : EReal :=
  if h : i < 4096 ∧ j < 8192 then x (ix2 ⟨i, h.1⟩ ⟨j, h.2⟩) else ⊥

theorem x_mk_mk (x : Img.Idx → EReal) (i j : ℕ) (hi : i < 4096) (hj : j < 8192) :
    x (ix2 ⟨i, hi⟩ ⟨j, hj⟩) = pz x i j := by
  rw [pz, dif_pos (And.intro hi hj)]
theorem x_mk_fin (x : Img.Idx → EReal) (i : ℕ) (hi : i < 4096) (c : Fin 8192) :
    x (ix2 ⟨i, hi⟩ c) = pz x i c.val := by
  rw [pz, dif_pos (And.intro hi c.isLt)]
theorem x_fin_mk (x : Img.Idx → EReal) (R : Fin 4096) (j : ℕ) (hj : j < 8192) :
    x (ix2 R ⟨j, hj⟩) = pz x R.val j := by
  rw [pz, dif_pos (And.intro R.isLt hj)]
theorem x_fin_fin (x : Img.Idx → EReal) (R : Fin 4096) (c : Fin 8192) :
    x (ix2 R c) = pz x R.val c.val := by
  rw [pz, dif_pos (And.intro R.isLt c.isLt)]

/-- The maximum, from −∞, of the nine padded entries under the window is the separable dilation: on each
    side of the image that `(R, c)` touches the missing entries are −∞ in both, and what remains is one
    maximum of the same entries, associated and ordered differently. -/
theorem nine_eq_dil (x : Img.Idx → EReal) (R : Fin 4096) (c : Fin 8192) :
    max (max (max (max (max (max (max (max (max ⊥
        (wterm x ⊥ R c 0 0)) (wterm x ⊥ R c 0 1)) (wterm x ⊥ R c 0 2)) (wterm x ⊥ R c 1 0))
        (wterm x ⊥ R c 1 1)) (wterm x ⊥ R c 1 2)) (wterm x ⊥ R c 2 0)) (wterm x ⊥ R c 2 1))
        (wterm x ⊥ R c 2 2) = dil x R c := by
  have e2 : ∀ n : ℕ, n + 2 - 1 = n + 1 := fun n => by omega
  have hR := R.isLt
  have hc := c.isLt
  unfold dil vmax wterm
  by_cases hR0 : 0 < R.val <;> by_cases hR1 : R.val + 1 < 4096 <;> by_cases hc0 : 0 < c.val <;>
    by_cases hc1 : c.val + 1 < 8192
  all_goals first
    | (exfalso; omega)
    | (simp (disch := omega) only [dif_pos, dif_neg]
       simp only [x_mk_mk, x_mk_fin, x_fin_mk, x_fin_fin, Nat.add_zero, Nat.add_sub_cancel, e2]
       simp only [max_assoc, max_comm, max_left_comm, bot_le, max_eq_left, max_eq_right])

/-- **The windowed maximum is the dilation.** The 3×3 windowed maximum of `x` (stride one, padding one on every
    side) from an initial value that is −∞, at `(R, c)`, is `dil x R c`. -/
theorem reduceWindow_max_eq_dil (x : Img.Idx → EReal) {u : Shape} (init : u.Idx → EReal)
    (h : Img.ReduceWindows ![3, 3] ![1, 1] ![1, 1] ![1, 1] Img) (hu : 0 < u.numel)
    (hinit : init (Shape.Idx.first hu) = ⊥) (R : Fin 4096) (c : Fin 8192) :
    Host.reduceWindow (FloatOps.maximumf (F := Ideal) (φ := .f32)) ![3, 3] ![1, 1] ![1, 1] ![1, 1] x init h hu
      (ix2 R c) = dil x R c := by
  rw [reduceWindow_nine, hinit]
  simp only [Ideal.maximumf_def]
  exact nine_eq_dil x R c

/-- The word `0xFF800000` is −∞. -/
theorem ofBits_neg_inf_f32 : Ideal.ofBits .f32 0xFF800000#32 = ⊥ := by simp [Ideal.ofBits, Ideal.ieee]

/-- The reference's initial value for the windowed maximum is −∞. -/
theorem val_main_v0_eq_bot (i : Cert.ReferenceIdeal.S_.Idx) :
    Cert.ReferenceIdeal.Read.val_main_v0 (F := Ideal) i = ⊥ := by
  rw [Cert.ReferenceIdeal.Read.val_main_v0_apply, Cert.ReferenceIdeal.Read.val_main_cst_apply, Ideal.ofBits_def,
    ofBits_neg_inf_f32]

/-- **The reference's windowed-maximum stage is the dilation of the targets.** -/
theorem val_main_v1_eq_dil (x1 : FVec Ideal Img .f32) (R : Fin 4096) (c : Fin 8192) :
    Cert.ReferenceIdeal.Read.val_main_v1 (F := Ideal) x1 (ix2 R c) = dil x1 R c := by
  unfold Cert.ReferenceIdeal.Read.val_main_v1
  exact reduceWindow_max_eq_dil x1 _ _ _ (val_main_v0_eq_bot _) R c

end Cert.DilateRef

end
-- ==== Proof.RefIsSpec.lean ====
/-
  The reference's two sums are the specification's: its first float sum is Σ inputs · dilate(targets), its
  second Σ (1 − dilate(targets)) · inputs, each from the initial value zero, the dilation being the
  reference's 3×3 windowed maximum read at each index.
-/
import proofs.«101877_j28226525070228_2_alg».proof.Proof.DilateRef

noncomputable section

open scoped BigOperators

namespace Cert.RefIsSpec

open Idealize.ShloMosaic Idealize.ShloMosaic.ValueIdx Cert.Dilate Cert.ReferenceIdeal Cert.ReferenceIdeal.Read

/-- **The reference's first sum is Σ inputs · dilate(targets).** -/
theorem val_main_v3_eq_TP (x0 x1 : FVec Ideal Img .f32) (i : S_.Idx) :
    val_main_v3 (F := Ideal) x0 x1 i = TP x0 x1 := by
  rw [val_main_v3_apply, val_main_cst_0_apply, Ideal.ofBits_def, Ideal.ofBits_zero_f32, zero_add, sum_idx2]
  unfold TP
  refine Finset.sum_congr rfl fun R _ => Finset.sum_congr rfl fun c _ => ?_
  rw [val_main_v2_apply, Ideal.mulf_def, Cert.DilateRef.val_main_v1_eq_dil]

/-- **The reference's second sum is Σ (1 − dilate(targets)) · inputs**, `1` being the word `0x3F800000`. -/
theorem val_main_v7_eq_FP (x0 x1 : FVec Ideal Img .f32) (i : S_.Idx) :
    val_main_v7 (F := Ideal) x0 x1 i = FP (Ideal.ofBits .f32 0x3F800000#32) x0 x1 := by
  rw [val_main_v7_apply, val_main_cst_2_apply, Ideal.ofBits_def, Ideal.ofBits_zero_f32, zero_add, sum_idx2]
  unfold FP
  refine Finset.sum_congr rfl fun R _ => Finset.sum_congr rfl fun c _ => ?_
  rw [val_main_v6_apply, Ideal.mulf_def, val_main_v5_apply, Ideal.subf_def, val_main_v4_apply,
    val_main_cst_1_apply, Ideal.ofBits_def, Cert.DilateRef.val_main_v1_eq_dil]

end Cert.RefIsSpec

end
-- ==== Proof.BodyVal1.lean ====
/- What each case of the kernel body leaves in the two accumulated outputs, as a VALUE: the pieces the runs found, read
   back. At the reset the body stores a zero block, reads it back and stores the block's sum added to it; at a later
   point it stores the block's sum added to the running contents. The two sums are the skeleton's payloads over the
   four input blocks: the whole first and fourth blocks, row 7 of the second and row 0 of the third. Generic in the
   float instance. -/
import proofs.«101877_j28226525070228_2_alg».proof.Proof.BodyData
import Idealize.ShloMosaic.Lib.Pipeline.Value
import Idealize.ShloMosaic.Lib.ValueIdx
import Idealize.ShloMosaic.Lib.Tactic

set_option maxRecDepth 16384

noncomputable section

namespace Cert.KernelIdeal.BodyValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable {F : FTy → Type} [FloatOps F]

theorem hz : (![0, 0] : Fin 2 → Nat) = fun _ => 0 := funext fun a => by fin_cases a <;> rfl

/-- Row 7 of an 8×8192 block, as the body loads it. -/
abbrev row7 (x : Vec F S8x8192 .f32) : Vec F S1x8192 .f32 :=
  View.ld x (Rect.unit (s := S8x8192) ![7, 0] S1x8192.size inb_S8x8192_S1x8192_7_0)
/-- Row 0 of an 8×8192 block, as the body loads it. -/
abbrev row0 (x : Vec F S8x8192 .f32) : Vec F S1x8192 .f32 :=
  View.ld x (Rect.unit (s := S8x8192) ![0, 0] S1x8192.size inb_S8x8192_S1x8192_0_0)

/-- The reset case leaves in output 4 the first product's sum added to the zero block it stored and read back. -/
theorem outReset4_eq (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) :
    outReset4 c i arg1 harg1 arg2 harg2 arg3 harg3 arg4 harg4 arg5 harg5 arg6 harg6 hc0 x0 x1 x2 x3 = k0_pay1 (k0_pay6 i x0 (row7 x1) (row0 x2) x3) k0_pay3 := by
  unfold outReset4
  rw [View.read_writes_eq_canon _ _ _ (coverReset4 c i arg1 harg1 arg2 harg2 arg3 harg3 arg4 harg4 arg5 harg5 arg6 harg6 hc0 x0 x1 x2 x3)]
  unfold runReset
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, View.ld_unit_zero (S := S64x8192) hz, View.ld_unit_zero (S := S1x1) hz]

/-- The reset case leaves in output 5 the second product's sum added to the zero block it stored and read back. -/
theorem outReset5_eq (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : atReset i)
    (x0 : Vec F S64x8192 .f32) (x1 : Vec F S8x8192 .f32) (x2 : Vec F S8x8192 .f32) (x3 : Vec F S64x8192 .f32) :
    outReset5 c i arg1 harg1 arg2 harg2 arg3 harg3 arg4 harg4 arg5 harg5 arg6 harg6 hc0 x0 x1 x2 x3 = k0_pay2 (k0_pay7 i x0 (row7 x1) (row0 x2) x3) k0_pay4 := by
  unfold outReset5
  rw [View.read_writes_eq_canon _ _ _ (coverReset5 c i arg1 harg1 arg2 harg2 arg3 harg3 arg4 harg4 arg5 harg5 arg6 harg6 hc0 x0 x1 x2 x3)]
  unfold runReset
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, View.ld_unit_zero (S := S64x8192) hz, View.ld_unit_zero (S := S1x1) hz]

/-- At a later point the body leaves in output 4 the first product's sum added to the running contents. -/
theorem outAccum4_eq (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) :
    outAccum4 c i arg1 harg1 arg2 harg2 arg3 harg3 arg4 harg4 arg5 harg5 arg6 harg6 hc0 x0 x1 x2 x3 xo4 xo5 = k0_pay1 (k0_pay6 i x0 (row7 x1) (row0 x2) x3) xo4 := by
  unfold outAccum4
  rw [View.read_writes_eq_canon _ _ _ (coverAccum4 c i arg1 harg1 arg2 harg2 arg3 harg3 arg4 harg4 arg5 harg5 arg6 harg6 hc0 x0 x1 x2 x3 xo4 xo5)]
  unfold runAccum
  dsimp only
  sl_unfold_words
  rw [View.canon_unit_zero hz]
  simp only [View.readAt_eq_ld, harg1.read_unread, harg2.read_unread, harg3.read_unread, harg4.read_unread, harg5.read_unread, harg6.read_unread, View.ld_unit_zero (S := S64x8192) hz, View.ld_unit_zero (S := S1x1) hz]

/-- At a later point the body leaves in output 5 the second product's sum added to the running contents. -/
theorem outAccum5_eq (c : Dev nD) (i : grid0.Coords) (arg1 : Memref sig .tc .vmem S64x8192 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S64x8192 .f32) (harg4 : arg4.IsWhole) (arg5 : Memref sig .tc .vmem S1x1 .f32) (harg5 : arg5.IsWhole) (arg6 : Memref sig .tc .vmem S1x1 .f32) (harg6 : arg6.IsWhole) (hc0 : ¬atReset i)
    (x0 : Vec F S64x8192 .f32) (x1 : Vec F S8x8192 .f32) (x2 : Vec F S8x8192 .f32) (x3 : Vec F S64x8192 .f32) (xo4 : Vec F S1x1 .f32) (xo5 : Vec F S1x1 .f32) :
    outAccum5 c i arg1 harg1 arg2 harg2 arg3 harg3 arg4 harg4 arg5 harg5 arg6 harg6 hc0 x0 x1 x2 x3 xo4 xo5 = k0_pay2 (k0_pay7 i x0 (row7 x1) (row0 x2) x3) xo5 := by
  unfold outAccum5
  rw [View.read_writes_eq_canon _ _ _ (coverAccum5 c i arg1 harg1 arg2 harg2 arg3 harg3 arg4 harg4 arg5 harg5 arg6 harg6 hc0 x0 x1 x2 x3 xo4 xo5)]
  unfold runAccum
  dsimp only
  sl_unfold_words
  rw [View.canon_unit_zero hz]
  simp only [View.readAt_eq_ld, harg1.read_unread, harg2.read_unread, harg3.read_unread, harg4.read_unread, harg5.read_unread, harg6.read_unread, View.ld_unit_zero (S := S64x8192) hz, View.ld_unit_zero (S := S1x1) hz]

end Cert.KernelIdeal.BodyValue

end
-- ==== Proof.BodyVal2.lean ====
/- The two result arrays after the run. Each accumulated output is written back once, at the last of the 64 points, and
   its one-element block is the whole one-element array: so each array ends holding what the body left in the output's
   staging buffer at the last point. Generic in the float instance. -/
import proofs.«101877_j28226525070228_2_alg».proof.Proof.BodyVal1

set_option maxRecDepth 16384

noncomputable section

namespace Cert.KernelIdeal.BodyValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-- The last point of the grid. -/
abbrev tLast : Fin cfg0.N := ⟨63, by decide⟩

/-- What output 4's array ends holding: what the body left in its staging buffer at the last point (the one block is
    the whole array). -/
abbrev result4 (c : Dev nD) : Buf (Elt F) ((c : Thread nD τ).loc main_v0_0) := (outsAt m c 63 (by decide)).1

/-- The one write-back of window 4, at the last point, writes it: block (0, 0) of the 1×1 array read through zero
    offsets is the array. -/
theorem flushed4_eq (c : Dev nD) (t : Fin cfg0.N) (hf : (cfg0.win 4).flush t = true) :
    (dats m 0 c).flushed 4 t = ((cfg0.win 4).blk t).view.read (Elt F) (result4 m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after4]
  have hz' : (fun a => win0_4.index tLast a * main_v0_0.ty.shape.size a) = fun _ => 0 := funext fun a => by fin_cases a <;> decide
  exact (Memref.read_access_unit_zero (Elt F) main_v0_0 hz' (fun a => by rw [congrFun hz' a]; simp) (result4 m c)).symm

/-- So the array ends holding it: the last point's block covers the array. -/
theorem final4 (c : Dev nD) : (dats m 0 c).arrAt 4 cfg0.N = result4 m c :=
  (dats m 0 c).arrAt_eq_of_cover 4 (result4 m c) (flushed4_eq m c) fun i =>
    ⟨tLast, (flush0_4 tLast).mpr rfl, by
      show i ∈ ((View.whole main_v0_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- What output 5's array ends holding: what the body left in its staging buffer at the last point (the one block is
    the whole array). -/
abbrev result5 (c : Dev nD) : Buf (Elt F) ((c : Thread nD τ).loc main_v0_1) := (outsAt m c 63 (by decide)).2

/-- The one write-back of window 5, at the last point, writes it: block (0, 0) of the 1×1 array read through zero
    offsets is the array. -/
theorem flushed5_eq (c : Dev nD) (t : Fin cfg0.N) (hf : (cfg0.win 5).flush t = true) :
    (dats m 0 c).flushed 5 t = ((cfg0.win 5).blk t).view.read (Elt F) (result5 m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after5]
  have hz' : (fun a => win0_5.index tLast a * main_v0_1.ty.shape.size a) = fun _ => 0 := funext fun a => by fin_cases a <;> decide
  exact (Memref.read_access_unit_zero (Elt F) main_v0_1 hz' (fun a => by rw [congrFun hz' a]; simp) (result5 m c)).symm

/-- So the array ends holding it: the last point's block covers the array. -/
theorem final5 (c : Dev nD) : (dats m 0 c).arrAt 5 cfg0.N = result5 m c :=
  (dats m 0 c).arrAt_eq_of_cover 5 (result5 m c) (flushed5_eq m c) fun i =>
    ⟨tLast, (flush0_5 tLast).mpr rfl, by
      show i ∈ ((View.whole main_v0_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

end Cert.KernelIdeal.BodyValue

end
-- ==== Proof.BodyVal3.lean ====
/- The input windows' blocks read at coordinates of the two argument images. Window 0 and window 3 cut the images into
   64 blocks of 64 rows: block t holds rows 64 t … 64 t + 63. Windows 1 and 2 cut the first image into 512 blocks of 8
   rows and take, at point t, the block just above the point's rows (block 8 t − 1, clamped at 0) and the block just
   below them (block 8 (t + 1), clamped at 511): row 7 of the one is image row 64 t − 1 when t > 0, row 0 of the other
   is image row 64 (t + 1) when t < 63. A block's coordinate is its index times its extent plus the coordinate inside
   the block; the index maps are decided once over the 64 points. Generic in the float instance. -/
import proofs.«101877_j28226525070228_2_alg».proof.Proof.BodyVal1

set_option maxRecDepth 16384

noncomputable section

namespace Cert.KernelIdeal.BodyValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-- The grid has 64 points, as a bound on a point. -/
theorem tlt (t : Fin cfg0.N) : t.val < 64 := lt_of_lt_of_eq t.isLt N_0

/-- The one grid coordinate of point `t` is `t`. -/
theorem coord_eq : ∀ t : Fin cfg0.N, (grid0.coords t 0).val = t.val :=
  (by decide +kernel : ∀ t : Fin grid0.N, (grid0.coords t 0).val = t.val)

/-! ## The index maps, decided over the grid -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 8 * t.val - 1 ∧ win0_1.index t 1 = 0 :=
  (by decide +kernel : ∀ t : Fin grid0.N, win0_1.index t 0 = 8 * t.val - 1 ∧ win0_1.index t 1 = 0)
theorem index2 : ∀ t : Fin cfg0.N, win0_2.index t 0 = min (8 * (t.val + 1)) 511 ∧ win0_2.index t 1 = 0 :=
  (by decide +kernel : ∀ t : Fin grid0.N, win0_2.index t 0 = min (8 * (t.val + 1)) 511 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

/-! ## The blocks at coordinates -/

/-- Window 0's block at point `t`: rows `64 t + r` of the second argument image. -/
theorem iblk0_apply (c : Dev nD) (t : Fin cfg0.N) (r : Fin 64) (col : Fin 8192) :
    (iblk m c 0 t : Vec F S64x8192 .f32) (ix2 r col)
      = (m ((c : Thread nD τ).loc main_arg1) : Vec F S4096x8192 .f32) (ix2 ⟨64 * t.val + r.val, by have := tlt t; omega⟩ col) := by
  unfold iblk
  rw [View.read_apply]
  show V m c main_arg1 _ = m (c.tc.loc main_arg1) _
  unfold V
  congr 1
  funext a
  apply Fin.ext
  match a with
  | ⟨0, _⟩ => show win0_0.index t 0 * 64 + 1 * r.val = 64 * t.val + r.val; rw [(index0 t).1]; omega
  | ⟨1, _⟩ => show win0_0.index t 1 * 8192 + 1 * col.val = col.val; rw [(index0 t).2]; omega

/-- Window 3's block at point `t`: rows `64 t + r` of the first argument image. -/
theorem iblk3_apply (c : Dev nD) (t : Fin cfg0.N) (r : Fin 64) (col : Fin 8192) :
    (iblk m c 3 t : Vec F S64x8192 .f32) (ix2 r col)
      = (m ((c : Thread nD τ).loc main_arg0) : Vec F S4096x8192 .f32) (ix2 ⟨64 * t.val + r.val, by have := tlt t; omega⟩ col) := by
  unfold iblk
  rw [View.read_apply]
  show V m c main_arg0 _ = m (c.tc.loc main_arg0) _
  unfold V
  congr 1
  funext a
  apply Fin.ext
  match a with
  | ⟨0, _⟩ => show win0_3.index t 0 * 64 + 1 * r.val = 64 * t.val + r.val; rw [(index3 t).1]; omega
  | ⟨1, _⟩ => show win0_3.index t 1 * 8192 + 1 * col.val = col.val; rw [(index3 t).2]; omega

/-- Window 1's block at point `t`: rows `8 (8 t − 1) + r` of the second argument image. -/
theorem iblk1_apply (c : Dev nD) (t : Fin cfg0.N) (r : Fin 8) (col : Fin 8192) :
    (iblk m c 1 t : Vec F S8x8192 .f32) (ix2 r col)
      = (m ((c : Thread nD τ).loc main_arg1) : Vec F S4096x8192 .f32) (ix2 ⟨8 * (8 * t.val - 1) + r.val, by have := tlt t; omega⟩ col) := by
  unfold iblk
  rw [View.read_apply]
  show V m c main_arg1 _ = m (c.tc.loc main_arg1) _
  unfold V
  congr 1
  funext a
  apply Fin.ext
  match a with
  | ⟨0, _⟩ => show win0_1.index t 0 * 8 + 1 * r.val = 8 * (8 * t.val - 1) + r.val; rw [(index1 t).1]; omega
  | ⟨1, _⟩ => show win0_1.index t 1 * 8192 + 1 * col.val = col.val; rw [(index1 t).2]; omega

/-- Window 2's block at point `t`: rows `8 min (8 (t + 1)) 511 + r` of the second argument image. -/
theorem iblk2_apply (c : Dev nD) (t : Fin cfg0.N) (r : Fin 8) (col : Fin 8192) :
    (iblk m c 2 t : Vec F S8x8192 .f32) (ix2 r col)
      = (m ((c : Thread nD τ).loc main_arg1) : Vec F S4096x8192 .f32) (ix2 ⟨8 * min (8 * (t.val + 1)) 511 + r.val, by have := tlt t; omega⟩ col) := by
  unfold iblk
  rw [View.read_apply]
  show V m c main_arg1 _ = m (c.tc.loc main_arg1) _
  unfold V
  congr 1
  funext a
  apply Fin.ext
  match a with
  | ⟨0, _⟩ => show win0_2.index t 0 * 8 + 1 * r.val = 8 * min (8 * (t.val + 1)) 511 + r.val; rw [(index2 t).1]; omega
  | ⟨1, _⟩ => show win0_2.index t 1 * 8192 + 1 * col.val = col.val; rw [(index2 t).2]; omega

/-! ## The two single rows the body loads -/

/-- The load of row 7 reads row 7. -/
theorem row7_apply (x : Vec F S8x8192 .f32) (col : Fin 8192) : row7 x (ix2 0 col) = x (ix2 7 col) := by
  show x _ = x _
  congr 1
  funext a
  apply Fin.ext
  match a with
  | ⟨0, _⟩ => rfl
  | ⟨1, _⟩ => show 0 + 1 * col.val = col.val; omega

/-- The load of row 0 reads row 0. -/
theorem row0_apply (x : Vec F S8x8192 .f32) (col : Fin 8192) : row0 x (ix2 0 col) = x (ix2 0 col) := by
  show x _ = x _
  congr 1
  funext a
  apply Fin.ext
  match a with
  | ⟨0, _⟩ => rfl
  | ⟨1, _⟩ => show 0 + 1 * col.val = col.val; omega

/-- Past the first point, row 7 of window 1's block is the image row just above the point's rows. -/
theorem row7_iblk1 (c : Dev nD) (t : Fin cfg0.N) (h : 0 < t.val) (col : Fin 8192) :
    row7 (iblk m c 1 t : Vec F S8x8192 .f32) (ix2 0 col)
      = (m ((c : Thread nD τ).loc main_arg1) : Vec F S4096x8192 .f32) (ix2 ⟨64 * t.val - 1, by have := tlt t; omega⟩ col) := by
  rw [row7_apply, iblk1_apply]
  congr 2
  apply Fin.ext
  show 8 * (8 * t.val - 1) + 7 = 64 * t.val - 1
  omega

/-- Before the last point, row 0 of window 2's block is the image row just below the point's rows. -/
theorem row0_iblk2 (c : Dev nD) (t : Fin cfg0.N) (h : t.val < 63) (col : Fin 8192) :
    row0 (iblk m c 2 t : Vec F S8x8192 .f32) (ix2 0 col)
      = (m ((c : Thread nD τ).loc main_arg1) : Vec F S4096x8192 .f32) (ix2 ⟨64 * (t.val + 1), by omega⟩ col) := by
  rw [row0_apply, iblk2_apply]
  congr 2
  apply Fin.ext
  show 8 * min (8 * (t.val + 1)) 511 + 0 = 64 * (t.val + 1)
  omega

end Cert.KernelIdeal.BodyValue

end
-- ==== Proof.PaySum.lean ====
/-
  The kernel's payload arithmetic around the dilation, read at an index on the extended reals: the two
  products a block contributes, the sum of a block over its 64 rows and 8192 columns added to the running
  total, and the zero the running totals start from.
-/
import proofs.«101877_j28226525070228_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.PaySum

open Cert.KernelIdeal Cert.KernelIdeal.Gen Idealize.ShloMosaic Idealize.SL.Sem Idealize.ShloMosaic.ValueIdx

/-- The running totals start from the word `0x00000000`. -/
theorem pay3_eq (j : S1x1.Idx) : k0_pay3 (F := Ideal) j = Ideal.ofBits .f32 0x00000000#32 := rfl

theorem pay4_eq (j : S1x1.Idx) : k0_pay4 (F := Ideal) j = Ideal.ofBits .f32 0x00000000#32 := rfl

/-- A block's first product: inputs · dilation. -/
theorem pay6_apply (i : grid0.Coords) (v3 : Vec Ideal S64x8192 .f32) (v4 v5 : Vec Ideal S1x8192 .f32)
    (v31 : Vec Ideal S64x8192 .f32) (j : S64x8192.Idx) :
    k0_pay6 (F := Ideal) i v3 v4 v5 v31 j = v31 j * k0_pay5 (F := Ideal) i v3 v4 v5 j := rfl

/-- A block's second product: (1 − dilation) · inputs, `1` being the word `0x3F800000`. -/
theorem pay7_apply (i : grid0.Coords) (v3 : Vec Ideal S64x8192 .f32) (v4 v5 : Vec Ideal S1x8192 .f32)
    (v31 : Vec Ideal S64x8192 .f32) (j : S64x8192.Idx) :
    k0_pay7 (F := Ideal) i v3 v4 v5 v31 j
      = (Ideal.ofBits .f32 0x3F800000#32 - k0_pay5 (F := Ideal) i v3 v4 v5 j) * v31 j := rfl

/-- The sum of a 64×8192 block — the block cast to [1, 64, 8192], summed over its last two axes, the one entry
    of the result taken out — is the sum of the block's entries, row by row. -/
theorem lane_sum (v : FVec Ideal S64x8192 .f32) (hφ : FKind.Formats .f32)
    (hacc : (0x00000000#32 : BitVec 32) = FKind.add.neutral .f32 hφ) :
    extractAt ![0, 0, 0]
      (shapeCast S1x1x1
        (multiReduction (F := Ideal) .add [1, 2] S1 (shapeCast S1x64x8192 v shapeCasts_S64x8192_S1x64x8192)
          0x00000000#32 reduces_S1x64x8192_S1 hφ hacc)
        shapeCasts_S1_S1x1x1)
      inpos_S1x1x1_p0_0_0 = ∑ r : Fin 64, ∑ col : Fin 8192, v (ix2 r col) := by
  unfold extractAt
  show multiReduction (F := Ideal) .add [1, 2] S1 (shapeCast S1x64x8192 v shapeCasts_S64x8192_S1x64x8192)
      0x00000000#32 reduces_S1x64x8192_S1 hφ hacc (Shape.reshapeEquiv shapeCasts_S1_S1x1x1 _) = _
  refine (Ideal.multiReduction_add_total _ _ _ (by decide) _ _ _).trans ?_
  rw [← sum_idx2]
  exact Equiv.sum_comp (Shape.reshapeEquiv shapeCasts_S64x8192_S1x64x8192) v

/-- A [1, 1] vector cast to [1, 1] is itself. -/
theorem shapeCast_S1x1_self (v : Vec Ideal S1x1 .f32) (j : S1x1.Idx) :
    shapeCast S1x1 v shapeCasts_S1x1_S1x1 j = v j := by
  unfold shapeCast
  rw [Shape.reshapeEquiv_self]

/-- **The first running total after a block**: the total before it plus (zero plus) the sum of the block's
    first products. -/
theorem pay1_eq (v32 : FVec Ideal S64x8192 .f32) (v36 : Vec Ideal S1x1 .f32) (j : S1x1.Idx) :
    k0_pay1 (F := Ideal) v32 v36 j
      = v36 j + (Ideal.ofBits .f32 0x00000000#32 + ∑ r : Fin 64, ∑ col : Fin 8192, v32 (ix2 r col)) := by
  unfold k0_pay1
  dsimp only
  rw [addf_apply, broadcast_apply, Ideal.ofBits_zero_f32, zero_add]
  exact congrArg₂ (· + ·) (shapeCast_S1x1_self v36 j) (lane_sum v32 _ _)

/-- **The second running total after a block**, likewise. -/
theorem pay2_eq (v35 : FVec Ideal S64x8192 .f32) (v45 : Vec Ideal S1x1 .f32) (j : S1x1.Idx) :
    k0_pay2 (F := Ideal) v35 v45 j
      = v45 j + (Ideal.ofBits .f32 0x00000000#32 + ∑ r : Fin 64, ∑ col : Fin 8192, v35 (ix2 r col)) := by
  unfold k0_pay2
  dsimp only
  rw [addf_apply, broadcast_apply, Ideal.ofBits_zero_f32, zero_add]
  exact congrArg₂ (· + ·) (shapeCast_S1x1_self v45 j) (lane_sum v35 _ _)

end Cert.KernelIdeal.PaySum

end
-- ==== Proof.PayDil.lean ====
/-
  The kernel's dilation payload, read at an index on the extended reals, is the specification's dilation.

  Block `t` of the grid holds rows `64 t … 64 t + 63` of the targets, the row above the block and the row below
  it (each replaced by −∞ where the block is the image's first or last). The payload takes, at every entry, the
  maximum with the entry below and the entry above — the block shifted up by one row and down by one row, the
  missing row of each shift being the neighbouring row handed in —, then the maximum of that with its left and
  right neighbours, brought by rotating the columns by one either way and masked by −∞ in the first and the
  last column. Read entry by entry this is the separable 3×3 maximum of the specification, argument for
  argument: no reassociation is needed.
-/
import proofs.«101877_j28226525070228_2_alg».proof.Proof.Gen.KernelIdeal.Skeleton
import proofs.«101877_j28226525070228_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.PayDil

open Cert.KernelIdeal Cert.KernelIdeal.Gen Idealize.ShloMosaic Idealize.SL.Sem Idealize.ShloMosaic.ValueIdx

/-- A choice on the equality of two numbers below 2³², compared as 32-bit words, is the choice on their equality. -/
theorem select_cmpi_eq {α : Type} (n k : ℕ) (hn : n < 2 ^ 32) (hk : k < 2 ^ 32) (A B : α) :
    Scalar.select (IntOp.cmpi .eq (BitVec.ofNat 32 n) (BitVec.ofNat 32 k)) A B = if n = k then A else B := by
  have hc : IntOp.cmpi .eq (BitVec.ofNat 32 n) (BitVec.ofNat 32 k)
      = BitVec.ofBool (BitVec.ofNat 32 n == BitVec.ofNat 32 k) := rfl
  rw [hc]
  unfold Scalar.select
  by_cases h : n = k
  · subst h
    rw [beq_self_eq_true, if_pos rfl, if_pos (by decide)]
  · have hb : (BitVec.ofNat 32 n == BitVec.ofNat 32 k) = false := by
      rw [beq_eq_false_iff_ne]
      intro e
      have := congrArg BitVec.toNat e
      rw [BitVec.toNat_ofNat, BitVec.toNat_ofNat, Nat.mod_eq_of_lt hn, Nat.mod_eq_of_lt hk] at this
      exact h this
    rw [hb, if_neg h, if_neg (by decide)]

/-- A rotation of a 64×8192 block along its columns by `s` reads, at `(r, c)`, column `(c + 8192 − s) mod 8192`. -/
theorem rot_apply {α : Type} (sb : BitVec 32) (s : ℕ) (hsb : sb.toNat = s) (hs : s < 8192)
    (x : S64x8192.Idx → α) (h : S64x8192.Rotates 1 none) (r : Fin 64) (c k : Fin 8192)
    (hk : k.val = (c.val + 8192 - s) % 8192) :
    dynamicRotate 1 sb none x h (ix2 r c) = x (ix2 r k) :=
  dynamicRotate_apply (1 : Fin 2) sb x h (ix2 r c) (ix2 r k) (fun b => by
    match b with
    | ⟨0, _⟩ => rfl
    | ⟨1, _⟩ =>
      show k.val = (c.val + 8192 - sb.toNat % 8192) % 8192
      rw [hsb, Nat.mod_eq_of_lt hs, hk])

/-- Rows 1…63 of a block followed by one more row: row `r` is the block's row `r + 1`, the last the added row. -/
theorem up_apply {α : Type} (v3 : S64x8192.Idx → α) (w : S1x8192.Idx → α) (r : Fin 64) (c : Fin 8192) :
    concatenate S64x8192 0 [⟨S63x8192, extractStridedSlice S63x8192 ![1, 0] v3 slices_S64x8192_o1_0_S63x8192⟩,
        ⟨S1x8192, w⟩] concatenates_S63x8192_S1x8192_S64x8192_d0 (ix2 r c)
      = if h : r.val + 1 < 64 then v3 (ix2 ⟨r.val + 1, h⟩ c) else w (ix2 0 c) := by
  by_cases h : r.val + 1 < 64
  · rw [dif_pos h]
    refine (concatenate_pair_apply_left (t := S64x8192) (s₁ := S63x8192) (s₂ := S1x8192) (0 : Fin 2) _ _ _ (ix2 r c) rfl (ix2 (⟨r.val, by omega⟩ : Fin 63) c)
      (fun b => by match b with | ⟨0, _⟩ => rfl | ⟨1, _⟩ => rfl)).trans ?_
    refine (slice2_axis0_apply 1 v3 slices_S64x8192_o1_0_S63x8192 ⟨r.val, by omega⟩ c ⟨r.val + 1, h⟩ ?_)
    show r.val + 1 = 1 + r.val
    omega
  · rw [dif_neg h]
    exact concatenate_pair_apply_right (t := S64x8192) (s₁ := S63x8192) (s₂ := S1x8192) (0 : Fin 2) _ _ _ (ix2 r c) rfl rfl (ix2 0 c)
      (fun b hb => by match b with | ⟨0, _⟩ => exact absurd rfl hb | ⟨1, _⟩ => rfl)
      (by show 0 + 63 = r.val; omega)

/-- One row followed by rows 0…62 of a block: row `r` is the block's row `r − 1`, the first the added row. -/
theorem down_apply {α : Type} (v3 : S64x8192.Idx → α) (w : S1x8192.Idx → α) (r : Fin 64) (c : Fin 8192) :
    concatenate S64x8192 0 [⟨S1x8192, w⟩,
        ⟨S63x8192, extractStridedSlice S63x8192 ![0, 0] v3 slices_S64x8192_o0_0_S63x8192⟩]
        concatenates_S1x8192_S63x8192_S64x8192_d0 (ix2 r c)
      = if h : 0 < r.val then v3 (ix2 ⟨r.val - 1, by omega⟩ c) else w (ix2 0 c) := by
  by_cases h : 0 < r.val
  · rw [dif_pos h]
    refine (concatenate_pair_apply_right (t := S64x8192) (s₁ := S1x8192) (s₂ := S63x8192) (0 : Fin 2) _ _ _ (ix2 r c) rfl rfl (ix2 (⟨r.val - 1, by omega⟩ : Fin 63) c)
      (fun b hb => by match b with | ⟨0, _⟩ => exact absurd rfl hb | ⟨1, _⟩ => rfl)
      (by show r.val - 1 + 1 = r.val; omega)).trans ?_
    refine (slice2_axis0_apply 0 v3 slices_S64x8192_o0_0_S63x8192 ⟨r.val - 1, by omega⟩ c ⟨r.val - 1, by omega⟩ ?_)
    show r.val - 1 = 0 + (r.val - 1)
    omega
  · rw [dif_neg h]
    exact concatenate_pair_apply_left (t := S64x8192) (s₁ := S1x8192) (s₂ := S63x8192) (0 : Fin 2) _ _ _ (ix2 r c) rfl (ix2 0 c)
      (fun b => by match b with | ⟨0, _⟩ => (show 0 = r.val; omega) | ⟨1, _⟩ => rfl)

/-- Two entries of the image in rows given by equal numbers are the same entry. -/
theorem x_congr (x : Cert.Dilate.Img.Idx → EReal) {a b : ℕ} (h : a = b) (ha : a < 4096) (hb : b < 4096)
    (c : Fin 8192) : x (ix2 ⟨a, ha⟩ c) = x (ix2 ⟨b, hb⟩ c) := by
  subst h; rfl

/-- The word `0xFF800000` is −∞. -/
theorem ofBits_neg_inf : Ideal.ofBits .f32 0xFF800000#32 = ⊥ := by simp [Ideal.ofBits, Ideal.ieee]

/-- The block's vertical maximum: each entry with the entry below it and the entry above it, the rows
    past the block's ends being the two rows handed in — or −∞ where the block is the image's first or last. -/
def vert (i : grid0.Coords) (v3 : Vec Ideal S64x8192 .f32) (v4 v5 : Vec Ideal S1x8192 .f32) :
    FVec Ideal S64x8192 .f32 :=
  maximumf
    (maximumf v3
      (concatenate S64x8192 0
        [⟨S63x8192, extractStridedSlice S63x8192 ![1, 0] v3 slices_S64x8192_o1_0_S63x8192⟩,
          ⟨S1x8192, Scalar.select (Scalar.cmpi .eq (BitVec.ofNat 32 (i 0).val) 63#32)
            (broadcast S1x8192 (Scalar.ofBits (F := Ideal) .f32 0xFF800000#32)) v5⟩]
        concatenates_S63x8192_S1x8192_S64x8192_d0))
    (concatenate S64x8192 0
      [⟨S1x8192, Scalar.select (Scalar.cmpi .eq (BitVec.ofNat 32 (i 0).val) 0#32)
          (broadcast S1x8192 (Scalar.ofBits (F := Ideal) .f32 0xFF800000#32)) v4⟩,
        ⟨S63x8192, extractStridedSlice S63x8192 ![0, 0] v3 slices_S64x8192_o0_0_S63x8192⟩]
      concatenates_S1x8192_S63x8192_S64x8192_d0)

/-- The payload is the horizontal maximum of the vertical maximum: each entry with its left neighbour (−∞ in
    column 0) and its right neighbour (−∞ in column 8191), the neighbours brought by rotations of the columns. -/
theorem pay5_unfold (i : grid0.Coords) (v3 : Vec Ideal S64x8192 .f32) (v4 v5 : Vec Ideal S1x8192 .f32) :
    k0_pay5 (F := Ideal) i v3 v4 v5 =
      maximumf
        (maximumf (vert i v3 v4 v5)
          (select (cmpi .eq (iota .tc S64x8192 32 [1] iota_S64x8192_d1_w32) (broadcast S64x8192 0#32))
            (broadcast S64x8192 (Scalar.ofBits (F := Ideal) .f32 0xFF800000#32))
            (dynamicRotate 1 1#32 none (vert i v3 v4 v5) rotates_S64x8192_d1)))
        (select (cmpi .eq (iota .tc S64x8192 32 [1] iota_S64x8192_d1_w32) (broadcast S64x8192 8191#32))
          (broadcast S64x8192 (Scalar.ofBits (F := Ideal) .f32 0xFF800000#32))
          (dynamicRotate 1 8191#32 none (vert i v3 v4 v5) rotates_S64x8192_d1)) := rfl

/-- **The block's vertical maximum is the specification's**, for block `t` holding rows `64 t … 64 t + 63` of the
    image, the row above it and the row below it. -/
theorem vert_eq (t : ℕ) (ht : t < 64) (i : grid0.Coords) (hi : (i 0).val = t)
    (x1 : Cert.Dilate.Img.Idx → EReal) (v3 : Vec Ideal S64x8192 .f32) (v4 v5 : Vec Ideal S1x8192 .f32)
    (h3 : ∀ (r : Fin 64) (col : Fin 8192), v3 (ix2 r col) = x1 (ix2 ⟨64 * t + r.val, by omega⟩ col))
    (h4 : ∀ (h : 0 < t) (col : Fin 8192), v4 (ix2 0 col) = x1 (ix2 ⟨64 * t - 1, by omega⟩ col))
    (h5 : ∀ (h : t < 63) (col : Fin 8192), v5 (ix2 0 col) = x1 (ix2 ⟨64 * (t + 1), by omega⟩ col))
    (r : Fin 64) (col : Fin 8192) :
    vert i v3 v4 v5 (ix2 r col) = Cert.Dilate.vmax x1 ⟨64 * t + r.val, by omega⟩ col := by
  have hr := r.isLt
  unfold vert Cert.Dilate.vmax
  rw [maximumf_apply, maximumf_apply, up_apply, down_apply, hi]
  unfold Scalar.cmpi
  congr 1
  · congr 1
    · exact h3 r col
    · by_cases hr1 : r.val + 1 < 64
      · rw [dif_pos hr1, dif_pos (by show 64 * t + r.val + 1 < 4096; omega)]
        exact (h3 _ col).trans (x_congr x1 (by show 64 * t + (r.val + 1) = 64 * t + r.val + 1; omega) _ _ col)
      · rw [dif_neg hr1, select_cmpi_eq t 63 (by omega) (by norm_num)]
        by_cases ht63 : t = 63
        · rw [if_pos ht63, dif_neg (by show ¬ 64 * t + r.val + 1 < 4096; omega)]
          exact ofBits_neg_inf
        · rw [if_neg ht63, dif_pos (by show 64 * t + r.val + 1 < 4096; omega)]
          exact (h5 (by omega) col).trans (x_congr x1 (by show 64 * (t + 1) = 64 * t + r.val + 1; omega) _ _ col)
  · by_cases hr0 : 0 < r.val
    · rw [dif_pos hr0, dif_pos (by show 0 < 64 * t + r.val; omega)]
      exact (h3 _ col).trans (x_congr x1 (by show 64 * t + (r.val - 1) = 64 * t + r.val - 1; omega) _ _ col)
    · rw [dif_neg hr0, select_cmpi_eq t 0 (by omega) (by norm_num)]
      by_cases ht0 : t = 0
      · rw [if_pos ht0, dif_neg (by show ¬ 0 < 64 * t + r.val; omega)]
        exact ofBits_neg_inf
      · rw [if_neg ht0, dif_pos (by show 0 < 64 * t + r.val; omega)]
        exact (h4 (by omega) col).trans (x_congr x1 (by show 64 * t - 1 = 64 * t + r.val - 1; omega) _ _ col)

/-- **The payload is the dilation.** Block `t`'s payload, at row `r` and column `col`, is the dilated image at row
    `64 t + r`, column `col`. -/
theorem pay5_eq (t : ℕ) (ht : t < 64) (i : grid0.Coords) (hi : (i 0).val = t)
    (x1 : Cert.Dilate.Img.Idx → EReal) (v3 : Vec Ideal S64x8192 .f32) (v4 v5 : Vec Ideal S1x8192 .f32)
    (h3 : ∀ (r : Fin 64) (col : Fin 8192), v3 (ix2 r col) = x1 (ix2 ⟨64 * t + r.val, by omega⟩ col))
    (h4 : ∀ (h : 0 < t) (col : Fin 8192), v4 (ix2 0 col) = x1 (ix2 ⟨64 * t - 1, by omega⟩ col))
    (h5 : ∀ (h : t < 63) (col : Fin 8192), v5 (ix2 0 col) = x1 (ix2 ⟨64 * (t + 1), by omega⟩ col))
    (r : Fin 64) (col : Fin 8192) :
    k0_pay5 (F := Ideal) i v3 v4 v5 (ix2 r col) = Cert.Dilate.dil x1 ⟨64 * t + r.val, by omega⟩ col := by
  have hv := vert_eq t ht i hi x1 v3 v4 v5 h3 h4 h5
  have hcol := col.isLt
  rw [pay5_unfold, maximumf_apply, maximumf_apply, select_apply, select_apply]
  unfold Cert.Dilate.dil
  congr 1
  · congr 1
    · exact hv r col
    · show Scalar.select (IntOp.cmpi .eq (iota .tc S64x8192 32 [1] iota_S64x8192_d1_w32 (ix2 r col))
          (BitVec.ofNat 32 0)) (Ideal.ofBits .f32 0xFF800000#32)
          (dynamicRotate 1 1#32 none (vert i v3 v4 v5) rotates_S64x8192_d1 (ix2 r col)) = _
      rw [iota_single_apply]
      show Scalar.select (IntOp.cmpi .eq (BitVec.ofNat 32 col.val) (BitVec.ofNat 32 0)) _ _ = _
      rw [select_cmpi_eq col.val 0 (by omega) (by norm_num)]
      by_cases hc : col.val = 0
      · rw [if_pos hc, dif_neg (by omega)]
        exact ofBits_neg_inf
      · rw [if_neg hc, dif_pos (by omega),
          rot_apply 1#32 1 rfl (by norm_num) _ _ r col ⟨col.val - 1, by omega⟩
            (by show col.val - 1 = (col.val + 8192 - 1) % 8192; omega)]
        exact hv r _
  · show Scalar.select (IntOp.cmpi .eq (iota .tc S64x8192 32 [1] iota_S64x8192_d1_w32 (ix2 r col))
        (BitVec.ofNat 32 8191)) (Ideal.ofBits .f32 0xFF800000#32)
        (dynamicRotate 1 8191#32 none (vert i v3 v4 v5) rotates_S64x8192_d1 (ix2 r col)) = _
    rw [iota_single_apply]
    show Scalar.select (IntOp.cmpi .eq (BitVec.ofNat 32 col.val) (BitVec.ofNat 32 8191)) _ _ = _
    rw [select_cmpi_eq col.val 8191 (by omega) (by norm_num)]
    by_cases hc : col.val = 8191
    · rw [if_pos hc, dif_neg (by omega)]
      exact ofBits_neg_inf
    · rw [if_neg hc, dif_pos (by omega),
        rot_apply 8191#32 8191 rfl (by norm_num) _ _ r col ⟨col.val + 1, by omega⟩
          (by show col.val + 1 = (col.val + 8192 - 8191) % 8192; omega)]
      exact hv r _

end Cert.KernelIdeal.PayDil

end
-- ==== Proof.SumBlocks.lean ====
/-
  Regrouping the sum over the image into the sums over its 64 blocks of 64 rows, and a running
  accumulation of the blocks' sums, over the extended reals. Only the commutativity and associativity of
  addition are used (the extended reals are a commutative additive monoid), so nothing is asked of the
  summands: no finiteness, no sign.
-/
import Mathlib.Data.EReal.Basic
import Mathlib.Algebra.BigOperators.Fin
import Mathlib.Algebra.BigOperators.Intervals
import Mathlib.Data.Fintype.BigOperators

noncomputable section

open scoped BigOperators

namespace Cert.SumBlocks

/-- Row `64 t + r` of the image is row `r` of block `t`: the rows are the pairs (block, row within the block). -/
def blockEquiv : Fin 64 × Fin 64 ≃ Fin 4096 where
  toFun p := ⟨64 * p.1.val + p.2.val, by omega⟩
  invFun R := (⟨R.val / 64, by omega⟩, ⟨R.val % 64, by omega⟩)
  left_inv p := by
    apply Prod.ext
    · apply Fin.ext; show (64 * p.1.val + p.2.val) / 64 = p.1.val; omega
    · apply Fin.ext; show (64 * p.1.val + p.2.val) % 64 = p.2.val; omega
  right_inv R := by
    apply Fin.ext; show 64 * (R.val / 64) + R.val % 64 = R.val; omega

theorem blockEquiv_apply (t r : Fin 64) : blockEquiv (t, r) = ⟨64 * t.val + r.val, by omega⟩ := rfl

/-- The sum of `g` over block `t`: its 64 rows `64 t + r`, every column. -/
def blk (g : Fin 4096 → Fin 8192 → EReal) (t : Fin 64) : EReal :=
  ∑ r : Fin 64, ∑ c : Fin 8192, g ⟨64 * t.val + r.val, by omega⟩ c

/-- **The blocks' sums add up to the sum over the image.** -/
theorem sum_blk (g : Fin 4096 → Fin 8192 → EReal) :
    ∑ t : Fin 64, blk g t = ∑ R : Fin 4096, ∑ c : Fin 8192, g R c := by
  rw [← Equiv.sum_comp blockEquiv (fun R => ∑ c : Fin 8192, g R c), Fintype.sum_prod_type]
  rfl

/-- A running accumulation — started from `z + (z + s 0)` and continued by `acc (n + 1) = acc n + (z + s (n + 1))`
    for the steps below 64, with `z` zero — holds after step `n` the sum of `s 0, …, s n`. -/
theorem acc_eq_sum_range (z : EReal) (hz : z = 0) (s acc : ℕ → EReal) (h0 : acc 0 = z + (z + s 0))
    (hs : ∀ n, n + 1 < 64 → acc (n + 1) = acc n + (z + s (n + 1))) :
    ∀ n, n < 64 → acc n = ∑ t ∈ Finset.range (n + 1), s t := by
  subst hz
  intro n
  induction n with
  | zero => intro _; rw [h0, zero_add, zero_add, Finset.sum_range_one]
  | succ k ih =>
    intro hk
    rw [hs k hk, ih (by omega), zero_add, Finset.sum_range_succ _ (k + 1)]

/-- After the last of the 64 steps the accumulation holds the sum of all 64 terms. -/
theorem acc_last (z : EReal) (hz : z = 0) (s acc : ℕ → EReal) (h0 : acc 0 = z + (z + s 0))
    (hs : ∀ n, n + 1 < 64 → acc (n + 1) = acc n + (z + s (n + 1))) :
    acc 63 = ∑ t : Fin 64, s t.val := by
  rw [acc_eq_sum_range z hz s acc h0 hs 63 (by omega), Fin.sum_univ_eq_sum_range]

/-- **The block-by-block accumulation is the sum over the image**: accumulating the 64 blocks' sums of `g` from
    zero, one block a step, ends at the sum of `g` over the image. -/
theorem acc_blocks (z : EReal) (hz : z = 0) (g : Fin 4096 → Fin 8192 → EReal) (acc : ℕ → EReal)
    (h0 : acc 0 = z + (z + blk g ⟨0, by omega⟩))
    (hs : ∀ n (h : n + 1 < 64), acc (n + 1) = acc n + (z + blk g ⟨n + 1, h⟩)) :
    acc 63 = ∑ R : Fin 4096, ∑ c : Fin 8192, g R c := by
  have key := acc_last z hz (fun n => if h : n < 64 then blk g ⟨n, h⟩ else 0) acc
    (by rw [h0]; rfl)
    (fun n h => by rw [hs n h, dif_pos h])
  rw [key, ← sum_blk g]
  refine Finset.sum_congr rfl fun t _ => ?_
  rw [dif_pos t.isLt]

end Cert.SumBlocks

end
-- ==== Proof.BodyVal4.lean ====
/- The two result arrays as VALUES, on the extended reals: the first holds the sum over the image of inputs · dilation
   of targets, the second the sum of (1 − dilation of targets) · inputs. At every point the body adds to each running
   total zero plus the sum, over the point's 64 rows, of the product read off the point's blocks; the totals start from
   zero; the dilation at a row of the point's block reads the rows just above and just below the block off the two
   neighbouring blocks, absent at the image's edge. Summing the 64 blocks' sums in point order is the sum over the
   image: addition on the extended reals is commutative and associative. -/
import proofs.«101877_j28226525070228_2_alg».proof.Proof.BodyVal2
import proofs.«101877_j28226525070228_2_alg».proof.Proof.BodyVal3
import proofs.«101877_j28226525070228_2_alg».proof.Proof.PaySum
import proofs.«101877_j28226525070228_2_alg».proof.Proof.PayDil
import proofs.«101877_j28226525070228_2_alg».proof.Proof.SumBlocks
import proofs.«101877_j28226525070228_2_alg».proof.Proof.Spec

set_option maxRecDepth 16384

noncomputable section

namespace Cert.KernelIdeal.BodyValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-- The two argument images on core `c`: the inputs and the targets. -/
abbrev inputs (c : Dev nD) : Cert.Dilate.Img.Idx → EReal := m ((c : Thread nD τ).loc main_arg0)
abbrev targets (c : Dev nD) : Cert.Dilate.Img.Idx → EReal := m ((c : Thread nD τ).loc main_arg1)

/-- The word the totals start from, and the word the second product subtracts the dilation from. -/
abbrev zeroW : EReal := Ideal.ofBits .f32 0x00000000#32
abbrev oneW : EReal := Ideal.ofBits .f32 0x3F800000#32

/-- What the dilation payload must be shown to compute: at a row of the point's block, the 3×3 dilation of the
    targets, given that the block and the two single rows hold the image rows they do. -/
def DilSpec : Prop :=
  ∀ (t : ℕ) (ht : t < 64) (i : grid0.Coords) (hi : (i 0).val = t) (x1 : Cert.Dilate.Img.Idx → EReal)
    (v3 : Vec Ideal S64x8192 .f32) (v4 v5 : Vec Ideal S1x8192 .f32)
    (h3 : ∀ (r : Fin 64) (col : Fin 8192), v3 (ix2 r col) = x1 (ix2 ⟨64 * t + r.val, by omega⟩ col))
    (h4 : ∀ (h : 0 < t) (col : Fin 8192), v4 (ix2 0 col) = x1 (ix2 ⟨64 * t - 1, by omega⟩ col))
    (h5 : ∀ (h : t < 63) (col : Fin 8192), v5 (ix2 0 col) = x1 (ix2 ⟨64 * (t + 1), by omega⟩ col))
    (r : Fin 64) (col : Fin 8192),
    k0_pay5 (F := Ideal) i v3 v4 v5 (ix2 r col) = Cert.Dilate.dil x1 ⟨64 * t + r.val, by omega⟩ col

/-- The two summands, at an image position. -/
def gTP (c : Dev nD) (R : Fin 4096) (col : Fin 8192) : EReal :=
  inputs m c (ix2 R col) * Cert.Dilate.dil (targets m c) R col
def gFP (c : Dev nD) (R : Fin 4096) (col : Fin 8192) : EReal :=
  (oneW - Cert.Dilate.dil (targets m c) R col) * inputs m c (ix2 R col)

/-! ## One point's contribution -/

/-- The dilation payload at point `t`, on the point's blocks, is the dilation of the targets at the block's rows. -/
theorem pay5_at (hD : DilSpec) (c : Dev nD) (t : Fin cfg0.N) (r : Fin 64) (col : Fin 8192) :
    k0_pay5 (F := Ideal) (grid0.coords t) (iblk m c 0 t) (row7 (iblk m c 1 t)) (row0 (iblk m c 2 t)) (ix2 r col)
      = Cert.Dilate.dil (targets m c) ⟨64 * t.val + r.val, by have := tlt t; omega⟩ col :=
  hD t.val (tlt t) (grid0.coords t) (coord_eq t) (targets m c) (iblk m c 0 t) (row7 (iblk m c 1 t)) (row0 (iblk m c 2 t))
    (fun r col => iblk0_apply m c t r col) (fun h col => row7_iblk1 m c t h col) (fun h col => row0_iblk2 m c t h col) r col

/-- The first product summed over point `t`'s block is the block's share of the first sum. -/
theorem sum_pay6 (hD : DilSpec) (c : Dev nD) (t : Fin cfg0.N) :
    ∑ r : Fin 64, ∑ col : Fin 8192,
        k0_pay6 (F := Ideal) (grid0.coords t) (iblk m c 0 t) (row7 (iblk m c 1 t)) (row0 (iblk m c 2 t)) (iblk m c 3 t) (ix2 r col)
      = Cert.SumBlocks.blk (gTP m c) ⟨t.val, tlt t⟩ := by
  unfold Cert.SumBlocks.blk gTP
  refine Finset.sum_congr rfl fun r _ => Finset.sum_congr rfl fun col _ => ?_
  rw [Cert.KernelIdeal.PaySum.pay6_apply, pay5_at m hD c t r col, iblk3_apply m c t r col]

/-- The second product summed over point `t`'s block is the block's share of the second sum. -/
theorem sum_pay7 (hD : DilSpec) (c : Dev nD) (t : Fin cfg0.N) :
    ∑ r : Fin 64, ∑ col : Fin 8192,
        k0_pay7 (F := Ideal) (grid0.coords t) (iblk m c 0 t) (row7 (iblk m c 1 t)) (row0 (iblk m c 2 t)) (iblk m c 3 t) (ix2 r col)
      = Cert.SumBlocks.blk (gFP m c) ⟨t.val, tlt t⟩ := by
  unfold Cert.SumBlocks.blk gFP
  refine Finset.sum_congr rfl fun r _ => Finset.sum_congr rfl fun col _ => ?_
  rw [Cert.KernelIdeal.PaySum.pay7_apply, pay5_at m hD c t r col, iblk3_apply m c t r col]

/-! ## The running totals, point by point -/

/-- The one element of each output after point `n` (zero past the grid). -/
def tot4 (c : Dev nD) (n : ℕ) : EReal := if h : n < cfg0.N then (outsAt m c n h).1 (ix2 0 0) else 0
def tot5 (c : Dev nD) (n : ℕ) : EReal := if h : n < cfg0.N then (outsAt m c n h).2 (ix2 0 0) else 0

theorem lt_N {n : ℕ} (h : n < 64) : n < cfg0.N := lt_of_lt_of_eq h N_0.symm

/-- After the first point: zero, plus zero plus the first block's share. -/
theorem tot4_zero (hD : DilSpec) (c : Dev nD) : tot4 m c 0 = zeroW + (zeroW + Cert.SumBlocks.blk (gTP m c) ⟨0, by omega⟩) := by
  have h0 : (0 : ℕ) < cfg0.N := lt_N (by omega)
  unfold tot4
  rw [dif_pos h0, outsAt_reset_fst m c ⟨0, h0⟩ rfl, outReset4_eq, Cert.KernelIdeal.PaySum.pay1_eq, Cert.KernelIdeal.PaySum.pay3_eq,
    sum_pay6 m hD c ⟨0, h0⟩]
theorem tot5_zero (hD : DilSpec) (c : Dev nD) : tot5 m c 0 = zeroW + (zeroW + Cert.SumBlocks.blk (gFP m c) ⟨0, by omega⟩) := by
  have h0 : (0 : ℕ) < cfg0.N := lt_N (by omega)
  unfold tot5
  rw [dif_pos h0, outsAt_reset_snd m c ⟨0, h0⟩ rfl, outReset5_eq, Cert.KernelIdeal.PaySum.pay2_eq, Cert.KernelIdeal.PaySum.pay4_eq,
    sum_pay7 m hD c ⟨0, h0⟩]

/-- After a later point: the total before it, plus zero plus the point's block's share. -/
theorem tot4_succ (hD : DilSpec) (c : Dev nD) (n : ℕ) (h : n + 1 < 64) :
    tot4 m c (n + 1) = tot4 m c n + (zeroW + Cert.SumBlocks.blk (gTP m c) ⟨n + 1, h⟩) := by
  have h1 : n + 1 < cfg0.N := lt_N h
  have h0 : n < cfg0.N := lt_N (by omega)
  have hB : ¬(⟨n + 1, h1⟩ : Fin cfg0.N).val % 64 = 0 := by dsimp only; omega
  unfold tot4
  rw [dif_pos h1, dif_pos h0, outsAt_accum_fst m c ⟨n + 1, h1⟩ hB, outAccum4_eq, Cert.KernelIdeal.PaySum.pay1_eq,
    sum_pay6 m hD c ⟨n + 1, h1⟩]
  rfl
theorem tot5_succ (hD : DilSpec) (c : Dev nD) (n : ℕ) (h : n + 1 < 64) :
    tot5 m c (n + 1) = tot5 m c n + (zeroW + Cert.SumBlocks.blk (gFP m c) ⟨n + 1, h⟩) := by
  have h1 : n + 1 < cfg0.N := lt_N h
  have h0 : n < cfg0.N := lt_N (by omega)
  have hB : ¬(⟨n + 1, h1⟩ : Fin cfg0.N).val % 64 = 0 := by dsimp only; omega
  unfold tot5
  rw [dif_pos h1, dif_pos h0, outsAt_accum_snd m c ⟨n + 1, h1⟩ hB, outAccum5_eq, Cert.KernelIdeal.PaySum.pay2_eq,
    sum_pay7 m hD c ⟨n + 1, h1⟩]
  rfl

/-! ## The totals after the last point, and the result arrays -/

theorem tot4_last (hD : DilSpec) (c : Dev nD) : tot4 m c 63 = Cert.Dilate.TP (inputs m c) (targets m c) :=
  Cert.SumBlocks.acc_blocks zeroW Ideal.ofBits_zero_f32 (gTP m c) (tot4 m c) (tot4_zero m hD c) (fun n h => tot4_succ m hD c n h)
theorem tot5_last (hD : DilSpec) (c : Dev nD) : tot5 m c 63 = Cert.Dilate.FP oneW (inputs m c) (targets m c) :=
  Cert.SumBlocks.acc_blocks zeroW Ideal.ofBits_zero_f32 (gFP m c) (tot5 m c) (tot5_zero m hD c) (fun n h => tot5_succ m hD c n h)

/-- A 1×1 block has one index. -/
theorem idx_S1x1 (j : S1x1.Idx) : j = ix2 0 0 := by
  funext a
  match a with
  | ⟨0, _⟩ => exact Fin.ext (by have := idx2_lt0 j; show (j 0).val = 0; omega)
  | ⟨1, _⟩ => exact Fin.ext (by have := idx2_lt1 j; show (j 1).val = 0; omega)

/-- THE FIRST RESULT: the array ends holding the sum of inputs · dilation of targets. -/
theorem arrAt4_eq_TP_of (hD : DilSpec) (c : Dev nD) :
    (dats m 0 c).arrAt 4 cfg0.N = fun _ => Cert.Dilate.TP (inputs m c) (targets m c) := by
  rw [final4 m c]
  funext j
  rw [idx_S1x1 j, ← tot4_last m hD c]
  unfold tot4
  rw [dif_pos (lt_N (by omega))]

/-- THE SECOND RESULT: the array ends holding the sum of (1 − dilation of targets) · inputs. -/
theorem arrAt5_eq_FP_of (hD : DilSpec) (c : Dev nD) :
    (dats m 0 c).arrAt 5 cfg0.N = fun _ => Cert.Dilate.FP oneW (inputs m c) (targets m c) := by
  rw [final5 m c]
  funext j
  rw [idx_S1x1 j, ← tot5_last m hD c]
  unfold tot5
  rw [dif_pos (lt_N (by omega))]

/-! ## The results, the dilation payload's value supplied -/

/-- The dilation payload computes the dilation. -/
theorem dilSpec : DilSpec := Cert.KernelIdeal.PayDil.pay5_eq

/-- THE FIRST RESULT. -/
theorem arrAt4_eq_TP (c : Dev nD) :
    (dats m 0 c).arrAt 4 cfg0.N
      = fun _ => Cert.Dilate.TP (m ((c.tc : Thread nD τ).loc main_arg0)) (m ((c.tc : Thread nD τ).loc main_arg1)) :=
  arrAt4_eq_TP_of m dilSpec c

/-- THE SECOND RESULT. -/
theorem arrAt5_eq_FP (c : Dev nD) :
    (dats m 0 c).arrAt 5 cfg0.N
      = fun _ => Cert.Dilate.FP (Ideal.ofBits .f32 0x3F800000#32) (m ((c.tc : Thread nD τ).loc main_arg0)) (m ((c.tc : Thread nD τ).loc main_arg1)) :=
  arrAt5_eq_FP_of m dilSpec c

end Cert.KernelIdeal.BodyValue

end
-- ==== Proof.lean ====
/-
  The proof of `Cert.Claim`.

  The kernel computes a 3×3 grayscale dilation of one image (the maximum over the 3×3 neighbourhood, −∞ outside the
  image) separably — the maximum over three rows, then over three columns of that — in 64 blocks of 64 rows, the row
  above and the row below each block read through two further windows on the SAME image, and accumulates
  tp = Σ inputs·dilated and fp = Σ (1 − dilated)·inputs block by block into two 1×1 cells; the reference takes the
  window maximum and the two sums over the whole image at once.  Both end with clip((tp + 1) / (tp + fp + 1), 0, 1).
  At the ideal instance the two dilations are one function (max is associative, commutative and idempotent, −∞ its
  identity), and a sum over the image is the sum of its 64 block sums (addition of extended reals is associative and
  commutative; no finiteness is used), so the two results are equal.

  The three frames: each program runs to its end, faults nowhere and leaves both images as launched.  For the kernel,
  at the word level and at the ideal instance alike, this is the body's triple at every grid point (two cases: the first
  point resets the two cells, every later point adds to them) carried through the launch, in which the image the
  dilation reads is dealt among the three windows that read it; for the reference it is its run with the result dropped.
  The idealization rewrote nothing, so `preserves` is `True`.
-/
import proofs.«101877_j28226525070228_2_alg».proof.Defs
import proofs.«101877_j28226525070228_2_alg».proof.Proof.Gen.Kernel
import proofs.«101877_j28226525070228_2_alg».proof.Proof.Gen.Kernel.Skeleton
import proofs.«101877_j28226525070228_2_alg».proof.Proof.Gen.Kernel.Launch
import proofs.«101877_j28226525070228_2_alg».proof.Proof.Gen.Kernel.Points
import proofs.«101877_j28226525070228_2_alg».proof.Proof.Gen.KernelIdeal
import proofs.«101877_j28226525070228_2_alg».proof.Proof.Gen.KernelIdeal.Skeleton
import proofs.«101877_j28226525070228_2_alg».proof.Proof.Gen.KernelIdeal.Launch
import proofs.«101877_j28226525070228_2_alg».proof.Proof.Gen.KernelIdeal.Points
import proofs.«101877_j28226525070228_2_alg».proof.Proof.Gen.ReferenceIdeal
import proofs.«101877_j28226525070228_2_alg».proof.Proof.Gen.Pre_finite_inputs
import proofs.«101877_j28226525070228_2_alg».proof.Proof.Gen.ReferenceIdeal.Run
import proofs.«101877_j28226525070228_2_alg».proof.Proof.Gen.ReferenceIdeal.Read
import proofs.«101877_j28226525070228_2_alg».proof.Proof.Run
import proofs.«101877_j28226525070228_2_alg».proof.Proof.KRun
import proofs.«101877_j28226525070228_2_alg».proof.Proof.RefIsSpec
import proofs.«101877_j28226525070228_2_alg».proof.Proof.BodyVal4
import Idealize.ShloMosaic.Adequacy
import Idealize.ShloMosaic.Init

noncomputable section

namespace Cert.Proof

open Idealize.ShloMosaic Idealize.ShloMosaic.TcCoe Idealize.SL.Sem

/-- The reference's result is the shared scalar tail of its two sums. -/
theorem ref_tail (x0 x1 : FVec Ideal Cert.Dilate.Img .f32) :
    Cert.ReferenceIdeal.Read.val_main_v12 (F := Ideal) x0 x1
      = Cert.KernelIdeal.Run.finishS (F := Ideal) (Cert.ReferenceIdeal.Read.val_main_v3 (F := Ideal) x0 x1)
          (Cert.ReferenceIdeal.Read.val_main_v7 (F := Ideal) x0 x1) := rfl

/-- A 1×1 cell holding one number, read as a scalar, is that number. -/
theorem cell_as_scalar (a : EReal) :
    (shapeCast Cert.KernelIdeal.S_ (fun _ => a : FVec Ideal Cert.KernelIdeal.S1x1 .f32) Cert.KernelIdeal.Facts₀.shapeCasts_S1x1_S_
      : FVec Ideal Cert.KernelIdeal.S_ .f32) = fun _ => a := rfl

theorem frame_p : Cert.frame_Kernel := fun m ρ _ => Cert.Kernel.Run.frame m ρ

theorem frame_pi : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the scalar tail of its two accumulated cells, which hold the two sums of
    the specification; the reference's is the same tail of its two sums, which are the same two sums. -/
theorem algebraic : Cert.algebraic_KernelIdeal_ReferenceIdeal := by
  intro m ρ m' ρ' _ hagree
  refine ⟨_, Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2, ref_tail,
    Cert.KernelIdeal.BodyValue.arrAt4_eq_TP, Cert.KernelIdeal.BodyValue.arrAt5_eq_FP]
  unfold Cert.KernelIdeal.Run.finish
  congr 1
  · funext i; exact Cert.RefIsSpec.val_main_v3_eq_TP _ _ i
  · funext i; exact Cert.RefIsSpec.val_main_v7_eq_FP _ _ i

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
